-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S128x16 .f32) (main_arg9 : FVec F S16 .f32) (main_v33 : IVec S_ 1) : IVec S_ 1 :=
  let main_v34 : FVec F S128x16 .f32 := Host.absf main_arg8
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S128 .f32) (main_arg6 : FVec F S128x16 .f32) (main_arg7 : FVec F S16 .f32) (main_arg8 : FVec F S128x16 .f32) (main_arg9 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x16 .f32) (main_arg7 : FVec F S16 .f32) (main_arg8 : FVec F S128x16 .f32) (main_arg9 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S128x32 : Shape := ⟨2, ![128, 32]⟩
abbrev S32 : Shape := ⟨1, ![32]⟩
abbrev S100000x32 : Shape := ⟨2, ![100000, 32]⟩
abbrev S5000x32 : Shape := ⟨2, ![5000, 32]⟩
abbrev S1x32 : Shape := ⟨2, ![1, 32]⟩
abbrev S100000x16 : Shape := ⟨2, ![100000, 16]⟩

abbrev nBuf : Space → Nat
  | .hbm => 63
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S128x16, .f32⟩
  | .hbm, ⟨9, _⟩ => ⟨S16, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .f32⟩
  | .hbm, ⟨38, _⟩ => ⟨S_, .f32⟩
  | .hbm, ⟨39, _⟩ => ⟨S100000x128, .f32⟩
  | .hbm, ⟨40, _⟩ => ⟨S1700000x1, .i32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x128, .f32⟩
  | .hbm, ⟨53, _⟩ => ⟨S_, .f32⟩
  | .hbm, ⟨54, _⟩ => ⟨S100000x128, .f32⟩
  | .hbm, ⟨55, _⟩ => ⟨S1700000x1, .i32⟩
  | .hbm, ⟨56, _⟩ => ⟨S100000x128, .f32⟩
  | .hbm, ⟨57, _⟩ => ⟨S100000x128, .f32⟩
  | .hbm, ⟨58, _⟩ => ⟨S128x32, .f32⟩
  | .hbm, ⟨59, _⟩ => ⟨S32, .f32⟩
  | .hbm, ⟨60, _⟩ => ⟨S100000x32, .f32⟩
  | .hbm, ⟨61, _⟩ => ⟨S100000x16, .f32⟩
  | .hbm, ⟨62, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x32, .f32⟩
  | .local _ .vmem, ⟨31, _⟩ => ⟨S32, .f32⟩
  | .local _ .vmem, ⟨32, _⟩ => ⟨S5000x32, .f32⟩
  | .local _ .vmem, ⟨33, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  concatenates_S128x16_S128x16_S128x32_d1 : Shape.Concatenates [S128x16, S128x16] S128x32 1
  concatenates_S16_S16_S32_d0 : Shape.Concatenates [S16, S16] S32 0
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32_S32_0 : ∀ a, (![0] : Fin 1 → Nat) a + S32.size a ≤ S32.size a
  h_S32 : 0 < S32.numel
  shapeCasts_S32_S32 : S32.ShapeCasts S32
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  slices_S100000x32_S100000x16_0_0 : S100000x32.Slices ![0, 0] S100000x16
  slices_S100000x32_S100000x16_0_16 : S100000x32.Slices ![0, 16] S100000x16
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x32_S5000x32_1_0_0_1_n_n_wf : DotDims.WF S5000x128 S128x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x32.size a ≤ S128x32.size a
  hwx4_1 : ∀ i : grid4.Coords, EltTy.bits .f32 = 32 ∨ (Rect.block (s := S128x32) S128x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32.size a ≤ S32.size a
  hwx4_2 : ∀ i : grid4.Coords, EltTy.bits .f32 = 32 ∨ (Rect.block (s := S32) S32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x32.size a ≤ S100000x32.size a
  hwx4_3 : ∀ i : grid4.Coords, EltTy.bits .f32 = 32 ∨ (Rect.block (s := S100000x32) S5000x32.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v38) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v39) S128x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v40) S32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v41) S5000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x16 : Shape := ⟨2, ![100000, 16]⟩
abbrev S1x16 : Shape := ⟨2, ![1, 16]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x16, .f32⟩
  | 7 => ⟨S16, .f32⟩
  | 8 => ⟨S128x16, .f32⟩
  | 9 => ⟨S16, .f32⟩
  | 10 => ⟨S1x1600000, .i32⟩
  | 11 => ⟨S1600000, .i32⟩
  | 12 => ⟨S1x1600000, .i32⟩
  | 13 => ⟨S1600000, .i32⟩
  | 14 => ⟨S100000x128, .f32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S100000, .i32⟩
  | 71 => ⟨S1700000, .i32⟩
  | 72 => ⟨S1700000, .i32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x128, .f32⟩
  | 111 => ⟨S1700000x1, .f32⟩
  | 112 => ⟨S1700000x128, .f32⟩
  | 113 => ⟨S1700000x128, .f32⟩
  | 114 => ⟨S_, .f32⟩
  | 115 => ⟨S100000x128, .f32⟩
  | 116 => ⟨S1700000x1, .i32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x16, .f32⟩
  | 125 => ⟨S1x16, .f32⟩
  | 126 => ⟨S100000x16, .f32⟩
  | 127 => ⟨S100000x16, .f32⟩
  | _ => ⟨S100000x128, .f32⟩

abbrev hbmTy0_1 (i : Nat) : BufTy := match i % 128 with
  | 0 => ⟨S100000x16, .f32⟩
  | 1 => ⟨S1x16, .f32⟩
  | 2 => ⟨S100000x16, .f32⟩
  | 3 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call0_cst : Ref sig .tc := ⟨.hbm, 66, rfl⟩
abbrev main_call0_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_v58 : Ref sig .tc := ⟨.hbm, 84, rfl⟩
abbrev main_v59 : Ref sig .tc := ⟨.hbm, 85, rfl⟩
abbrev main_c_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_15 : Ref sig .tc := ⟨.hbm, 102, rfl⟩
abbrev main_v73 : Ref sig .tc := ⟨.hbm, 103, rfl⟩
abbrev main_v74 : Ref sig .tc := ⟨.hbm, 104, rfl⟩
abbrev main_c_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_17 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_call1_cst : Ref sig .tc := ⟨.hbm, 121, rfl⟩
abbrev main_call1_v0 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KRun.lean ====
/-
  The run of the five-call program with every buffer named.

  The program is ten segments: stretches of host operations and five kernel calls.  Each segment turns the contents of
  the core's buffers into new contents: a host stretch by applying its operations in order, a kernel call by replacing
  its output array with what its grid points wrote back.  Composing the ten gives the contents at the return, `W10`.
  This module states that every weakly fair execution terminates with EVERY unscoped buffer at those contents, so that
  the two result buffers can be read off `W10` afterwards.
-/
import proofs.«155776_j91233695301736_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core
    at the composed contents `W10`. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The same run with the two results and the ten arguments picked out. -/
theorem run_results : θ_run defs (onTc (τ := τ) (main (F := F))) ⟨m, fun _ => 0, ρ⟩ (fun r => ∀ c : Dev nD,
      r.2.mem ((c.tc : Thread nD τ).loc main_v42) = W10 m ρ c (Proc.devRef .tc main_v42)
      ∧ r.2.mem ((c.tc : Thread nD τ).loc main_v43) = W10 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v42 (by decide)),
     h c _ (mem_uc main_v43 (by decide)),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c)⟩)
    (run_buffers m ρ)

end Cert.KernelIdeal.Whole

end
-- ==== Proof.GcnSpec.lean ====
/-
  What each of the three kernels computes, coordinate by coordinate, over the extended reals.

  * the scaled product: entry `(r, q)` is `(∑ k, A[r,k] · W[k,q]) · D[r,0]` (a matrix product whose row `r` is scaled
    by the one-column array `D`);
  * the scaled, shifted and clipped aggregate: entry `(r, q)` is `max (G[r,q] · D[r,0] + b[q]) 0`;
  * the head: entry `(r, q)` is `(∑ k, H[r,k] · W[k,q]) + b[q]`.

  A whole array is built from such a coordinate function by `ofCoords`.
-/
import Idealize.ShloMosaic.Lib.ValueIdx
import Idealize.ShloMosaic.PureOps.Ideal

noncomputable section

namespace Cert.GcnSpec

open Idealize.ShloMosaic Idealize.ShloMosaic.ValueIdx

variable {M K N : ℕ}

/-- The rank-2 array whose entry `(r, q)` is `f r q`. -/
def ofCoords (f : Fin M → Fin N → EReal) : (⟨2, ![M, N]⟩ : Shape).Idx → EReal :=
  fun i => f ⟨(i 0).val, idx2_lt0 i⟩ ⟨(i 1).val, idx2_lt1 i⟩

theorem ofCoords_apply (f : Fin M → Fin N → EReal) (r : Fin M) (q : Fin N) : ofCoords f (ix2 r q) = f r q := rfl

/-- Entry `(r, q)` of the matrix product `A · W` with row `r` scaled by `D[r, 0]`. -/
def mmScaleAt (A : (⟨2, ![M, K]⟩ : Shape).Idx → EReal) (W : (⟨2, ![K, N]⟩ : Shape).Idx → EReal)
    (D : (⟨2, ![M, 1]⟩ : Shape).Idx → EReal) (r : Fin M) (q : Fin N) : EReal :=
  (∑ k : Fin K, A (ix2 r k) * W (ix2 k q)) * D (ix2 r (0 : Fin 1))

/-- Entry `(r, q)` of the aggregate `G` with row `r` scaled by `D[r, 0]`, shifted by `b[q]` and clipped below at the
    number the zero word denotes. -/
def biasReluAt (G : (⟨2, ![M, N]⟩ : Shape).Idx → EReal) (D : (⟨2, ![M, 1]⟩ : Shape).Idx → EReal)
    (b : (⟨1, ![N]⟩ : Shape).Idx → EReal) (r : Fin M) (q : Fin N) : EReal :=
  max (G (ix2 r q) * D (ix2 r (0 : Fin 1)) + b (ix1 q)) (Ideal.ofBits .f32 0x00000000#32)

/-- Entry `(r, q)` of the matrix product `H · W` shifted by `b[q]`. -/
def headAt (H : (⟨2, ![M, K]⟩ : Shape).Idx → EReal) (W : (⟨2, ![K, N]⟩ : Shape).Idx → EReal)
    (b : (⟨1, ![N]⟩ : Shape).Idx → EReal) (r : Fin M) (q : Fin N) : EReal :=
  (∑ k : Fin K, H (ix2 r k) * W (ix2 k q)) + b (ix1 q)

end Cert.GcnSpec

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.Region0.lean ====
/-
  The first kernel call: what its output array holds when it returns.

  Grid point `t` of twenty stages rows `5000 t … 5000 t + 4999` of the node features, the whole weight matrix and the
  same rows of the one-column array of node weights, and writes back, for those rows, the matrix product with each row
  scaled by its node weight.  The twenty blocks tile the array, so the output array ends at the scaled product of the
  whole arrays, whatever the region found in its buffers.
-/
import proofs.«155776_j91233695301736_2_alg».proof.Proof.Gen.KernelIdeal.Frame
import proofs.«155776_j91233695301736_2_alg».proof.Proof.GcnSpec
import proofs.«155776_j91233695301736_2_alg».proof.Proof.LibDotIdx
import proofs.«155776_j91233695301736_2_alg».proof.Proof.LibKeepdims
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.GcnSpec

theorem zeros2 : (![0, 0] : Fin 2 → Nat) = fun _ => 0 := funext fun a => by fin_cases a <;> rfl

/-! ## The body's arithmetic at an index -/

/-- Entry `(p, q)` of what the body stores: row `p` of the staged features against column `q` of the weights, scaled by
    the staged node weight of row `p`. (A change of float format is the identity on the extended reals.) -/
theorem pay0_apply (v0 : Vec Ideal S5000x128 .f32) (v2 : Vec Ideal S128x128 .f32) (v5 : Vec Ideal S5000x1 .f32)
    (p : Fin 5000) (q : Fin 128) :
    k0_pay1 v0 v2 v5 (ix2 p q) = (∑ k : Fin 128, v0 (ix2 p k) * v2 (ix2 k q)) * v5 (ix2 p (0 : Fin 1)) := by
  unfold k0_pay1
  refine (mulf_apply _ _ _).trans ?_
  refine congrArg₂ (· * ·) ?_ ?_
  · exact DotIdx.matmul_plain_zero_apply _ none _ _ p q
  · exact (Cert.SupCon.Ker.broadcastTo_a1_ab_apply _ _ p q).trans (congrFun (shapeCast_self _ _) _)

/-- The same entry when the staged blocks are rows of whole arrays `A`, `W`, `D`: block row `p` is array row `r`. -/
theorem pay0_at (v0 : Vec Ideal S5000x128 .f32) (v2 : Vec Ideal S128x128 .f32) (v5 : Vec Ideal S5000x1 .f32)
    (A : S100000x128.Idx → EReal) (W : S128x128.Idx → EReal) (D : S100000x1.Idx → EReal)
    (p : Fin 5000) (q : Fin 128) (r : Fin 100000)
    (h0 : ∀ k : Fin 128, v0 (ix2 p k) = A (ix2 r k)) (h1 : ∀ k : Fin 128, v2 (ix2 k q) = W (ix2 k q))
    (h2 : v5 (ix2 p (0 : Fin 1)) = D (ix2 r (0 : Fin 1))) :
    k0_pay1 v0 v2 v5 (ix2 p q) = mmScaleAt (M := 100000) (K := 128) (N := 128) A W D r q := by
  rw [pay0_apply]
  unfold mmScaleAt
  rw [h2]
  exact congrArg (· * D (ix2 r (0 : Fin 1))) (Finset.sum_congr rfl fun k _ => by rw [h0, h1])

/-! ## Where a block sits in its array -/

/-- The printed index maps over the grid: the features', the node weights' and the output's block index is the point's
    number on the row axis and zero on the other; the weight matrix's block stays at the origin. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `5000 t + p` of the array. -/
def row0 (t : Fin cfg0.N) (p : Fin 5000) : Fin 100000 :=
  ⟨t.val * 5000 + p.val, by have := lt_of_lt_of_eq t.isLt N_0; have := p.isLt; omega⟩

variable (V : (c : Dev nD) → (b : Ref sig .tc) → Buf (Elt Ideal) ((c : Thread nD τ).loc b))

theorem blk0_0 (c : Dev nD) (t : Fin cfg0.N) (p : Fin 5000) (k : Fin 128) :
    iblk0 V c 0 t (ix2 p k) = V c main_arg0 (ix2 (row0 t p) k) := by
  obtain ⟨e0, e1, -⟩ := idx_facts0 t
  show V c main_arg0 (((cfg0.win 0).blk t).view.emb (ix2 p k)) = V c main_arg0 (ix2 (row0 t p) k)
  refine congrArg (V c main_arg0) ?_
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

theorem blk0_1 (c : Dev nD) (t : Fin cfg0.N) (k : Fin 128) (q : Fin 128) :
    iblk0 V c 1 t (ix2 k q) = V c main_arg2 (ix2 k q) := by
  obtain ⟨-, -, e2, e3, -⟩ := idx_facts0 t
  show V c main_arg2 (((cfg0.win 1).blk t).view.emb (ix2 k q)) = V c main_arg2 (ix2 k q)
  refine congrArg (V c main_arg2) ?_
  funext a; apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

theorem blk0_2 (c : Dev nD) (t : Fin cfg0.N) (p : Fin 5000) :
    iblk0 V c 2 t (ix2 p (0 : Fin 1)) = V c main_v14 (ix2 (row0 t p) (0 : Fin 1)) := by
  obtain ⟨-, -, -, -, e4, e5, -⟩ := idx_facts0 t
  show V c main_v14 (((cfg0.win 2).blk t).view.emb (ix2 p (0 : Fin 1))) = V c main_v14 (ix2 (row0 t p) (0 : Fin 1))
  refine congrArg (V c main_v14) ?_
  funext a; apply Fin.ext
  match a with
  | ⟨0, _⟩ => show win0_2.index t (0 : Fin 2) * 5000 + 1 * p.val = t.val * 5000 + p.val; rw [e4]; omega
  | ⟨1, _⟩ => show win0_2.index t (1 : Fin 2) * 1 + 1 * 0 = 0; rw [e5]

theorem emb0_3 (t : Fin cfg0.N) (p : Fin 5000) (q : Fin 128) :
    ((cfg0.win 3).blk t).view.emb (ix2 p q) = ix2 (row0 t p) q := by
  obtain ⟨-, -, -, -, -, -, e6, e7⟩ := idx_facts0 t
  funext a; apply Fin.ext
  match a with
  | ⟨0, _⟩ => show win0_3.index t (0 : Fin 2) * 5000 + 1 * p.val = t.val * 5000 + p.val; rw [e6]; omega
  | ⟨1, _⟩ => show win0_3.index t (1 : Fin 2) * 128 + 1 * q.val = q.val; rw [e7]; omega

/-! ## What a point writes back, and the array after the last point -/

/-- What point `t` writes back is block `t` of the scaled product of the arrays the region found. -/
theorem flushed0 (c : Dev nD) (t : Fin cfg0.N) :
    (dat0 V c).flushed 3 t = ((cfg0.win 3).blk t).view.read (Elt Ideal)
      (ofCoords (mmScaleAt (M := 100000) (K := 128) (N := 128) (V c main_arg0) (V c main_arg2) (V c main_v14))) := by
  show (cfg0.win 3).cut (grid0.coords t) ((dat0 V c).after 3 t) = _
  rw [after0_3]
  unfold out0_3
  rw [View.canon_unit_zero zeros2]
  simp only [View.ld_unit_zero (S := S5000x128) zeros2, View.ld_unit_zero (S := S128x128) zeros2,
    View.ld_unit_zero (S := S5000x1) zeros2]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = ofCoords (mmScaleAt (M := 100000) (K := 128) (N := 128) (V c main_arg0) (V c main_arg2) (V c main_v14))
        (((cfg0.win 3).blk t).view.emb (ix2 p q))
  rw [emb0_3 t p q, ofCoords_apply]
  exact pay0_at (iblk0 V c 0 t) (iblk0 V c 1 t) (iblk0 V c 2 t) (V c main_arg0) (V c main_arg2) (V c main_v14) p q (row0 t p)
    (fun k => blk0_0 V c t p k) (fun k => blk0_1 V c t k q) (blk0_2 V c t p)

/-- An index of the output array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v15).slice (win0_3.rect t)).set ↔ _
  rw [View.set_slice_whole, Rect.mem_set_unit]
  exact Iff.rfl

/-- Every row of the output array lies in the block of the point numbered by the row divided by 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, -, -, e6, e7⟩ := idx_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e6, ht]; omega
  | ⟨1, _⟩ =>
    show win0_3.index t (1 : Fin 2) * 128 ≤ (i 1).val ∧ (i 1).val < win0_3.index t (1 : Fin 2) * 128 + 128
    rw [e7]; omega

/-- The output array after the call: the scaled product of the arrays the region found. -/
theorem final0 (c : Dev nD) :
    (dat0 V c).arrAt 3 cfg0.N
      = ofCoords (mmScaleAt (M := 100000) (K := 128) (N := 128) (V c main_arg0) (V c main_arg2) (V c main_v14)) :=
  (dat0 V c).arrAt_eq_of_cover 3 _ (fun t _ => flushed0 V c t) cover0

end Cert.KernelIdeal.Whole

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«155776_j91233695301736_2_alg».proof.Proof.LibDotIdx
import proofs.«155776_j91233695301736_2_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.Region1.lean ====
/-
  The second kernel call: what its output array holds when it returns.

  Grid point `t` of twenty stages rows `5000 t … 5000 t + 4999` of the aggregated features and of the one-column array of
  node weights, and the whole bias vector, and writes back, for those rows, the aggregate scaled row by row by the node
  weight, shifted by the bias and clipped below at zero.  The twenty blocks tile the array.
-/
import proofs.«155776_j91233695301736_2_alg».proof.Proof.Gen.KernelIdeal.Frame
import proofs.«155776_j91233695301736_2_alg».proof.Proof.GcnSpec
import proofs.«155776_j91233695301736_2_alg».proof.Proof.LibRowOps
import proofs.«155776_j91233695301736_2_alg».proof.Proof.Region0
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.GcnSpec

theorem zeros1 : (![0] : Fin 1 → Nat) = fun _ => 0 := funext fun a => by fin_cases a; rfl

/-! ## The body's arithmetic at an index -/

/-- Entry `(p, q)` of what the body stores: the staged aggregate's entry times the staged node weight of row `p`, plus
    entry `q` of the bias, clipped below at the number the zero word denotes. -/
theorem pay1_apply (v0 : Vec Ideal S5000x128 .f32) (v2 : Vec Ideal S5000x1 .f32) (v6 : Vec Ideal S128 .f32)
    (p : Fin 5000) (q : Fin 128) :
    k1_pay1 v0 v2 v6 (ix2 p q)
      = max (v0 (ix2 p q) * v2 (ix2 p (0 : Fin 1)) + v6 (ix1 q)) (Ideal.ofBits .f32 0x00000000#32) := by
  unfold k1_pay1
  refine (maximumf_apply _ _ _).trans ?_
  refine congrArg₂ max ?_ rfl
  refine (addf_apply _ _ _).trans ?_
  refine congrArg₂ (· + ·) ?_ ?_
  · refine (mulf_apply _ _ _).trans ?_
    refine congrArg₂ (· * ·) ?_ ?_
    · exact congrFun (shapeCast_self _ _) _
    · exact (Cert.SupCon.Ker.broadcastTo_a1_ab_apply _ _ p q).trans (congrFun (shapeCast_self _ _) _)
  · exact Cert.LibRowOps.rowVec_kernel_apply _ _ _ p q

/-- The same entry when the staged blocks are rows of whole arrays `G`, `D` and the whole vector `b`. -/
theorem pay1_at (v0 : Vec Ideal S5000x128 .f32) (v2 : Vec Ideal S5000x1 .f32) (v6 : Vec Ideal S128 .f32)
    (G : S100000x128.Idx → EReal) (D : S100000x1.Idx → EReal) (b : S128.Idx → EReal)
    (p : Fin 5000) (q : Fin 128) (r : Fin 100000)
    (h0 : v0 (ix2 p q) = G (ix2 r q)) (h1 : v2 (ix2 p (0 : Fin 1)) = D (ix2 r (0 : Fin 1)))
    (h2 : v6 (ix1 q) = b (ix1 q)) :
    k1_pay1 v0 v2 v6 (ix2 p q) = biasReluAt (M := 100000) (N := 128) G D b r q := by
  rw [pay1_apply]
  unfold biasReluAt
  rw [h0, h1, h2]

/-! ## Where a block sits in its array -/

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row `p` of point `t`'s block is row `5000 t + p` of the array. -/
def row1 (t : Fin cfg1.N) (p : Fin 5000) : Fin 100000 :=
  ⟨t.val * 5000 + p.val, by have := lt_of_lt_of_eq t.isLt N_1; have := p.isLt; omega⟩

variable (V : (c : Dev nD) → (b : Ref sig .tc) → Buf (Elt Ideal) ((c : Thread nD τ).loc b))

theorem blk1_0 (c : Dev nD) (t : Fin cfg1.N) (p : Fin 5000) (q : Fin 128) :
    iblk1 V c 0 t (ix2 p q) = V c main_v25 (ix2 (row1 t p) q) := by
  obtain ⟨e0, e1, -⟩ := idx_facts1 t
  show V c main_v25 (((cfg1.win 0).blk t).view.emb (ix2 p q)) = V c main_v25 (ix2 (row1 t p) q)
  refine congrArg (V c main_v25) ?_
  funext a; apply Fin.ext
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

theorem blk1_1 (c : Dev nD) (t : Fin cfg1.N) (p : Fin 5000) :
    iblk1 V c 1 t (ix2 p (0 : Fin 1)) = V c main_v14 (ix2 (row1 t p) (0 : Fin 1)) := by
  obtain ⟨-, -, e2, e3, -⟩ := idx_facts1 t
  show V c main_v14 (((cfg1.win 1).blk t).view.emb (ix2 p (0 : Fin 1))) = V c main_v14 (ix2 (row1 t p) (0 : Fin 1))
  refine congrArg (V c main_v14) ?_
  funext a; apply Fin.ext
  match a with
  | ⟨0, _⟩ => show win1_1.index t (0 : Fin 2) * 5000 + 1 * p.val = t.val * 5000 + p.val; rw [e2]; omega
  | ⟨1, _⟩ => show win1_1.index t (1 : Fin 2) * 1 + 1 * 0 = 0; rw [e3]

theorem blk1_2 (c : Dev nD) (t : Fin cfg1.N) (q : Fin 128) :
    iblk1 V c 2 t (ix1 q) = V c main_arg3 (ix1 q) := by
  obtain ⟨-, -, -, -, e4, -⟩ := idx_facts1 t
  show V c main_arg3 (((cfg1.win 2).blk t).view.emb (ix1 q)) = V c main_arg3 (ix1 q)
  refine congrArg (V c main_arg3) ?_
  funext a; apply Fin.ext
  match a with
  | ⟨0, _⟩ => show win1_2.index t (0 : Fin 1) * 128 + 1 * q.val = q.val; rw [e4]; omega

theorem emb1_3 (t : Fin cfg1.N) (p : Fin 5000) (q : Fin 128) :
    ((cfg1.win 3).blk t).view.emb (ix2 p q) = ix2 (row1 t p) q := by
  obtain ⟨-, -, -, -, -, e5, e6⟩ := idx_facts1 t
  funext a; apply Fin.ext
  match a with
  | ⟨0, _⟩ => show win1_3.index t (0 : Fin 2) * 5000 + 1 * p.val = t.val * 5000 + p.val; rw [e5]; omega
  | ⟨1, _⟩ => show win1_3.index t (1 : Fin 2) * 128 + 1 * q.val = q.val; rw [e6]; omega

/-! ## What a point writes back, and the array after the last point -/

theorem flushed1 (c : Dev nD) (t : Fin cfg1.N) :
    (dat1 V c).flushed 3 t = ((cfg1.win 3).blk t).view.read (Elt Ideal)
      (ofCoords (biasReluAt (M := 100000) (N := 128) (V c main_v25) (V c main_v14) (V c main_arg3))) := by
  show (cfg1.win 3).cut (grid1.coords t) ((dat1 V c).after 3 t) = _
  rw [after1_3]
  unfold out1_3
  rw [View.canon_unit_zero zeros2]
  simp only [View.ld_unit_zero (S := S5000x128) zeros2, View.ld_unit_zero (S := S5000x1) zeros2,
    View.ld_unit_zero (S := S128) zeros1]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = ofCoords (biasReluAt (M := 100000) (N := 128) (V c main_v25) (V c main_v14) (V c main_arg3))
        (((cfg1.win 3).blk t).view.emb (ix2 p q))
  rw [emb1_3 t p q, ofCoords_apply]
  exact pay1_at (iblk1 V c 0 t) (iblk1 V c 1 t) (iblk1 V c 2 t) (V c main_v25) (V c main_v14) (V c main_arg3) p q (row1 t p)
    (blk1_0 V c t p q) (blk1_1 V c t p) (blk1_2 V c t q)

theorem mem_blk1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v26).slice (win1_3.rect t)).set ↔ _
  rw [View.set_slice_whole, Rect.mem_set_unit]
  exact Iff.rfl

theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, -, e5, e6⟩ := idx_facts1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [e5, ht]; omega
  | ⟨1, _⟩ =>
    show win1_3.index t (1 : Fin 2) * 128 ≤ (i 1).val ∧ (i 1).val < win1_3.index t (1 : Fin 2) * 128 + 128
    rw [e6]; omega

/-- The output array after the call: the scaled, shifted and clipped aggregate of the arrays the region found. -/
theorem final1 (c : Dev nD) :
    (dat1 V c).arrAt 3 cfg1.N
      = ofCoords (biasReluAt (M := 100000) (N := 128) (V c main_v25) (V c main_v14) (V c main_arg3)) :=
  (dat1 V c).arrAt_eq_of_cover 3 _ (fun t _ => flushed1 V c t) cover1

end Cert.KernelIdeal.Whole

end
-- ==== Proof.Region2.lean ====
/-
  The third kernel call: what its output array holds when it returns.

  Grid point `t` of twenty stages rows `5000 t … 5000 t + 4999` of the first layer's features, the whole second weight matrix and the
  same rows of the one-column array of node weights, and writes back, for those rows, the matrix product with each row
  scaled by its node weight.  The twenty blocks tile the array, so the output array ends at the scaled product of the
  whole arrays, whatever the region found in its buffers.
-/
import proofs.«155776_j91233695301736_2_alg».proof.Proof.Gen.KernelIdeal.Frame
import proofs.«155776_j91233695301736_2_alg».proof.Proof.GcnSpec
import proofs.«155776_j91233695301736_2_alg».proof.Proof.LibDotIdx
import proofs.«155776_j91233695301736_2_alg».proof.Proof.LibKeepdims
import proofs.«155776_j91233695301736_2_alg».proof.Proof.Region0
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.GcnSpec

/-! ## The body's arithmetic at an index -/

/-- Entry `(p, q)` of what the body stores: row `p` of the staged features against column `q` of the weights, scaled by
    the staged node weight of row `p`. (A change of float format is the identity on the extended reals.) -/
theorem pay2_apply (v0 : Vec Ideal S5000x128 .f32) (v2 : Vec Ideal S128x128 .f32) (v5 : Vec Ideal S5000x1 .f32)
    (p : Fin 5000) (q : Fin 128) :
    k2_pay1 v0 v2 v5 (ix2 p q) = (∑ k : Fin 128, v0 (ix2 p k) * v2 (ix2 k q)) * v5 (ix2 p (0 : Fin 1)) := by
  unfold k2_pay1
  refine (mulf_apply _ _ _).trans ?_
  refine congrArg₂ (· * ·) ?_ ?_
  · exact (DotIdx.matmul_plain_zero_apply _ none _ _ p q).trans
      (Finset.sum_congr rfl fun k _ => congrArg (· * v2 (ix2 k q)) (congrFun (shapeCast_self v0 _) _))
  · exact (Cert.SupCon.Ker.broadcastTo_a1_ab_apply _ _ p q).trans (congrFun (shapeCast_self _ _) _)

/-- The same entry when the staged blocks are rows of whole arrays `A`, `W`, `D`: block row `p` is array row `r`. -/
theorem pay2_at (v0 : Vec Ideal S5000x128 .f32) (v2 : Vec Ideal S128x128 .f32) (v5 : Vec Ideal S5000x1 .f32)
    (A : S100000x128.Idx → EReal) (W : S128x128.Idx → EReal) (D : S100000x1.Idx → EReal)
    (p : Fin 5000) (q : Fin 128) (r : Fin 100000)
    (h0 : ∀ k : Fin 128, v0 (ix2 p k) = A (ix2 r k)) (h1 : ∀ k : Fin 128, v2 (ix2 k q) = W (ix2 k q))
    (h2 : v5 (ix2 p (0 : Fin 1)) = D (ix2 r (0 : Fin 1))) :
    k2_pay1 v0 v2 v5 (ix2 p q) = mmScaleAt (M := 100000) (K := 128) (N := 128) A W D r q := by
  rw [pay2_apply]
  unfold mmScaleAt
  rw [h2]
  exact congrArg (· * D (ix2 r (0 : Fin 1))) (Finset.sum_congr rfl fun k _ => by rw [h0, h1])

/-! ## Where a block sits in its array -/

/-- The printed index maps over the grid: the features', the node weights' and the output's block index is the point's
    number on the row axis and zero on the other; the weight matrix's block stays at the origin. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row `p` of point `t`'s block is row `5000 t + p` of the array. -/
def row2 (t : Fin cfg2.N) (p : Fin 5000) : Fin 100000 :=
  ⟨t.val * 5000 + p.val, by have := lt_of_lt_of_eq t.isLt N_2; have := p.isLt; omega⟩

variable (V : (c : Dev nD) → (b : Ref sig .tc) → Buf (Elt Ideal) ((c : Thread nD τ).loc b))

theorem blk2_0 (c : Dev nD) (t : Fin cfg2.N) (p : Fin 5000) (k : Fin 128) :
    iblk2 V c 0 t (ix2 p k) = V c main_v26 (ix2 (row2 t p) k) := by
  obtain ⟨e0, e1, -⟩ := idx_facts2 t
  show V c main_v26 (((cfg2.win 0).blk t).view.emb (ix2 p k)) = V c main_v26 (ix2 (row2 t p) k)
  refine congrArg (V c main_v26) ?_
  funext a; apply Fin.ext
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

theorem blk2_1 (c : Dev nD) (t : Fin cfg2.N) (k : Fin 128) (q : Fin 128) :
    iblk2 V c 1 t (ix2 k q) = V c main_arg4 (ix2 k q) := by
  obtain ⟨-, -, e2, e3, -⟩ := idx_facts2 t
  show V c main_arg4 (((cfg2.win 1).blk t).view.emb (ix2 k q)) = V c main_arg4 (ix2 k q)
  refine congrArg (V c main_arg4) ?_
  funext a; apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

theorem blk2_2 (c : Dev nD) (t : Fin cfg2.N) (p : Fin 5000) :
    iblk2 V c 2 t (ix2 p (0 : Fin 1)) = V c main_v14 (ix2 (row2 t p) (0 : Fin 1)) := by
  obtain ⟨-, -, -, -, e4, e5, -⟩ := idx_facts2 t
  show V c main_v14 (((cfg2.win 2).blk t).view.emb (ix2 p (0 : Fin 1))) = V c main_v14 (ix2 (row2 t p) (0 : Fin 1))
  refine congrArg (V c main_v14) ?_
  funext a; apply Fin.ext
  match a with
  | ⟨0, _⟩ => show win2_2.index t (0 : Fin 2) * 5000 + 1 * p.val = t.val * 5000 + p.val; rw [e4]; omega
  | ⟨1, _⟩ => show win2_2.index t (1 : Fin 2) * 1 + 1 * 0 = 0; rw [e5]

theorem emb2_3 (t : Fin cfg2.N) (p : Fin 5000) (q : Fin 128) :
    ((cfg2.win 3).blk t).view.emb (ix2 p q) = ix2 (row2 t p) q := by
  obtain ⟨-, -, -, -, -, -, e6, e7⟩ := idx_facts2 t
  funext a; apply Fin.ext
  match a with
  | ⟨0, _⟩ => show win2_3.index t (0 : Fin 2) * 5000 + 1 * p.val = t.val * 5000 + p.val; rw [e6]; omega
  | ⟨1, _⟩ => show win2_3.index t (1 : Fin 2) * 128 + 1 * q.val = q.val; rw [e7]; omega

/-! ## What a point writes back, and the array after the last point -/

/-- What point `t` writes back is block `t` of the scaled product of the arrays the region found. -/
theorem flushed2 (c : Dev nD) (t : Fin cfg2.N) :
    (dat2 V c).flushed 3 t = ((cfg2.win 3).blk t).view.read (Elt Ideal)
      (ofCoords (mmScaleAt (M := 100000) (K := 128) (N := 128) (V c main_v26) (V c main_arg4) (V c main_v14))) := by
  show (cfg2.win 3).cut (grid2.coords t) ((dat2 V c).after 3 t) = _
  rw [after2_3]
  unfold out2_3
  rw [View.canon_unit_zero zeros2]
  simp only [View.ld_unit_zero (S := S5000x128) zeros2, View.ld_unit_zero (S := S128x128) zeros2,
    View.ld_unit_zero (S := S5000x1) zeros2]
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
    = ofCoords (mmScaleAt (M := 100000) (K := 128) (N := 128) (V c main_v26) (V c main_arg4) (V c main_v14))
        (((cfg2.win 3).blk t).view.emb (ix2 p q))
  rw [emb2_3 t p q, ofCoords_apply]
  exact pay2_at (iblk2 V c 0 t) (iblk2 V c 1 t) (iblk2 V c 2 t) (V c main_v26) (V c main_arg4) (V c main_v14) p q (row2 t p)
    (fun k => blk2_0 V c t p k) (fun k => blk2_1 V c t k q) (blk2_2 V c t p)

/-- An index of the output array is in point `t`'s block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v27).slice (win2_3.rect t)).set ↔ _
  rw [View.set_slice_whole, Rect.mem_set_unit]
  exact Iff.rfl

/-- Every row of the output array lies in the block of the point numbered by the row divided by 5000. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨-, -, -, -, -, -, e6, e7⟩ := idx_facts2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    rw [e6, ht]; omega
  | ⟨1, _⟩ =>
    show win2_3.index t (1 : Fin 2) * 128 ≤ (i 1).val ∧ (i 1).val < win2_3.index t (1 : Fin 2) * 128 + 128
    rw [e7]; omega

/-- The output array after the call: the scaled product of the arrays the region found. -/
theorem final2 (c : Dev nD) :
    (dat2 V c).arrAt 3 cfg2.N
      = ofCoords (mmScaleAt (M := 100000) (K := 128) (N := 128) (V c main_v26) (V c main_arg4) (V c main_v14)) :=
  (dat2 V c).arrAt_eq_of_cover 3 _ (fun t _ => flushed2 V c t) cover2

end Cert.KernelIdeal.Whole

end
-- ==== Proof.Region3.lean ====
/-
  The fourth kernel call: what its output array holds when it returns.

  Grid point `t` of twenty stages rows `5000 t … 5000 t + 4999` of the aggregated features and of the one-column array of
  node weights, and the whole bias vector, and writes back, for those rows, the aggregate scaled row by row by the node
  weight, shifted by the bias and clipped below at zero.  The twenty blocks tile the array.
-/
import proofs.«155776_j91233695301736_2_alg».proof.Proof.Gen.KernelIdeal.Frame
import proofs.«155776_j91233695301736_2_alg».proof.Proof.GcnSpec
import proofs.«155776_j91233695301736_2_alg».proof.Proof.LibRowOps
import proofs.«155776_j91233695301736_2_alg».proof.Proof.Region0
import proofs.«155776_j91233695301736_2_alg».proof.Proof.Region1
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.GcnSpec

/-! ## The body's arithmetic at an index -/

/-- Entry `(p, q)` of what the body stores: the staged aggregate's entry times the staged node weight of row `p`, plus
    entry `q` of the bias, clipped below at the number the zero word denotes. -/
theorem pay3_apply (v0 : Vec Ideal S5000x128 .f32) (v2 : Vec Ideal S5000x1 .f32) (v6 : Vec Ideal S128 .f32)
    (p : Fin 5000) (q : Fin 128) :
    k3_pay1 v0 v2 v6 (ix2 p q)
      = max (v0 (ix2 p q) * v2 (ix2 p (0 : Fin 1)) + v6 (ix1 q)) (Ideal.ofBits .f32 0x00000000#32) := by
  unfold k3_pay1
  refine (maximumf_apply _ _ _).trans ?_
  refine congrArg₂ max ?_ rfl
  refine (addf_apply _ _ _).trans ?_
  refine congrArg₂ (· + ·) ?_ ?_
  · refine (mulf_apply _ _ _).trans ?_
    refine congrArg₂ (· * ·) ?_ ?_
    · exact congrFun (shapeCast_self _ _) _
    · exact (Cert.SupCon.Ker.broadcastTo_a1_ab_apply _ _ p q).trans (congrFun (shapeCast_self _ _) _)
  · exact Cert.LibRowOps.rowVec_kernel_apply _ _ _ p q

/-- The same entry when the staged blocks are rows of whole arrays `G`, `D` and the whole vector `b`. -/
theorem pay3_at (v0 : Vec Ideal S5000x128 .f32) (v2 : Vec Ideal S5000x1 .f32) (v6 : Vec Ideal S128 .f32)
    (G : S100000x128.Idx → EReal) (D : S100000x1.Idx → EReal) (b : S128.Idx → EReal)
    (p : Fin 5000) (q : Fin 128) (r : Fin 100000)
    (h0 : v0 (ix2 p q) = G (ix2 r q)) (h1 : v2 (ix2 p (0 : Fin 1)) = D (ix2 r (0 : Fin 1)))
    (h2 : v6 (ix1 q) = b (ix1 q)) :
    k3_pay1 v0 v2 v6 (ix2 p q) = biasReluAt (M := 100000) (N := 128) G D b r q := by
  rw [pay3_apply]
  unfold biasReluAt
  rw [h0, h1, h2]

/-! ## Where a block sits in its array -/

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Row `p` of point `t`'s block is row `5000 t + p` of the array. -/
def row3 (t : Fin cfg3.N) (p : Fin 5000) : Fin 100000 :=
  ⟨t.val * 5000 + p.val, by have := lt_of_lt_of_eq t.isLt N_3; have := p.isLt; omega⟩

variable (V : (c : Dev nD) → (b : Ref sig .tc) → Buf (Elt Ideal) ((c : Thread nD τ).loc b))

theorem blk3_0 (c : Dev nD) (t : Fin cfg3.N) (p : Fin 5000) (q : Fin 128) :
    iblk3 V c 0 t (ix2 p q) = V c main_v37 (ix2 (row3 t p) q) := by
  obtain ⟨e0, e1, -⟩ := idx_facts3 t
  show V c main_v37 (((cfg3.win 0).blk t).view.emb (ix2 p q)) = V c main_v37 (ix2 (row3 t p) q)
  refine congrArg (V c main_v37) ?_
  funext a; apply Fin.ext
  match a with
  | ⟨0, _⟩ => show win3_0.index t (0 : Fin 2) * 5000 + 1 * p.val = t.val * 5000 + p.val; rw [e0]; omega
  | ⟨1, _⟩ => show win3_0.index t (1 : Fin 2) * 128 + 1 * q.val = q.val; rw [e1]; omega

theorem blk3_1 (c : Dev nD) (t : Fin cfg3.N) (p : Fin 5000) :
    iblk3 V c 1 t (ix2 p (0 : Fin 1)) = V c main_v14 (ix2 (row3 t p) (0 : Fin 1)) := by
  obtain ⟨-, -, e2, e3, -⟩ := idx_facts3 t
  show V c main_v14 (((cfg3.win 1).blk t).view.emb (ix2 p (0 : Fin 1))) = V c main_v14 (ix2 (row3 t p) (0 : Fin 1))
  refine congrArg (V c main_v14) ?_
  funext a; apply Fin.ext
  match a with
  | ⟨0, _⟩ => show win3_1.index t (0 : Fin 2) * 5000 + 1 * p.val = t.val * 5000 + p.val; rw [e2]; omega
  | ⟨1, _⟩ => show win3_1.index t (1 : Fin 2) * 1 + 1 * 0 = 0; rw [e3]

theorem blk3_2 (c : Dev nD) (t : Fin cfg3.N) (q : Fin 128) :
    iblk3 V c 2 t (ix1 q) = V c main_arg5 (ix1 q) := by
  obtain ⟨-, -, -, -, e4, -⟩ := idx_facts3 t
  show V c main_arg5 (((cfg3.win 2).blk t).view.emb (ix1 q)) = V c main_arg5 (ix1 q)
  refine congrArg (V c main_arg5) ?_
  funext a; apply Fin.ext
  match a with
  | ⟨0, _⟩ => show win3_2.index t (0 : Fin 1) * 128 + 1 * q.val = q.val; rw [e4]; omega

theorem emb3_3 (t : Fin cfg3.N) (p : Fin 5000) (q : Fin 128) :
    ((cfg3.win 3).blk t).view.emb (ix2 p q) = ix2 (row3 t p) q := by
  obtain ⟨-, -, -, -, -, e5, e6⟩ := idx_facts3 t
  funext a; apply Fin.ext
  match a with
  | ⟨0, _⟩ => show win3_3.index t (0 : Fin 2) * 5000 + 1 * p.val = t.val * 5000 + p.val; rw [e5]; omega
  | ⟨1, _⟩ => show win3_3.index t (1 : Fin 2) * 128 + 1 * q.val = q.val; rw [e6]; omega

/-! ## What a point writes back, and the array after the last point -/

theorem flushed3 (c : Dev nD) (t : Fin cfg3.N) :
    (dat3 V c).flushed 3 t = ((cfg3.win 3).blk t).view.read (Elt Ideal)
      (ofCoords (biasReluAt (M := 100000) (N := 128) (V c main_v37) (V c main_v14) (V c main_arg5))) := by
  show (cfg3.win 3).cut (grid3.coords t) ((dat3 V c).after 3 t) = _
  rw [after3_3]
  unfold out3_3
  rw [View.canon_unit_zero zeros2]
  simp only [View.ld_unit_zero (S := S5000x128) zeros2, View.ld_unit_zero (S := S5000x1) zeros2,
    View.ld_unit_zero (S := S128) zeros1]
  funext j
  obtain ⟨p, q, rfl⟩ : ∃ (p : Fin 5000) (q : Fin 128), j = ix2 p q := ⟨j 0, j 1, eq_ix2 j⟩
  show k3_pay1 (iblk3 V c 0 t) (iblk3 V c 1 t) (iblk3 V c 2 t) (ix2 p q)
    = ofCoords (biasReluAt (M := 100000) (N := 128) (V c main_v37) (V c main_v14) (V c main_arg5))
        (((cfg3.win 3).blk t).view.emb (ix2 p q))
  rw [emb3_3 t p q, ofCoords_apply]
  exact pay3_at (iblk3 V c 0 t) (iblk3 V c 1 t) (iblk3 V c 2 t) (V c main_v37) (V c main_v14) (V c main_arg5) p q (row3 t p)
    (blk3_0 V c t p q) (blk3_1 V c t p) (blk3_2 V c t q)

theorem mem_blk3 (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v38).slice (win3_3.rect t)).set ↔ _
  rw [View.set_slice_whole, Rect.mem_set_unit]
  exact Iff.rfl

theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ : ∃ t : Fin cfg3.N, t.val = (i 0).val / 5000 :=
    ⟨⟨(i 0).val / 5000, lt_of_lt_of_eq (by omega : (i 0).val / 5000 < 20) N_3.symm⟩, rfl⟩
  obtain ⟨-, -, -, -, -, e5, e6⟩ := idx_facts3 t
  refine ⟨t, flush3_3 t, ?_⟩
  rw [mem_blk3]
  intro a
  match a with
  | ⟨0, _⟩ =>
    show win3_3.index t (0 : Fin 2) * 5000 ≤ (i 0).val ∧ (i 0).val < win3_3.index t (0 : Fin 2) * 5000 + 5000
    rw [e5, ht]; omega
  | ⟨1, _⟩ =>
    show win3_3.index t (1 : Fin 2) * 128 ≤ (i 1).val ∧ (i 1).val < win3_3.index t (1 : Fin 2) * 128 + 128
    rw [e6]; omega

/-- The output array after the call: the scaled, shifted and clipped aggregate of the arrays the region found. -/
theorem final3 (c : Dev nD) :
    (dat3 V c).arrAt 3 cfg3.N
      = ofCoords (biasReluAt (M := 100000) (N := 128) (V c main_v37) (V c main_v14) (V c main_arg5)) :=
  (dat3 V c).arrAt_eq_of_cover 3 _ (fun t _ => flushed3 V c t) cover3

end Cert.KernelIdeal.Whole

end
-- ==== Proof.Region4.lean ====
/-
  The fifth kernel call: what its output array holds when it returns.

  Grid point `t` of twenty stages rows `5000 t … 5000 t + 4999` of the second layer's features, the whole joined weight
  matrix (thirty-two columns) and the whole joined bias, and writes back, for those rows, the matrix product shifted by
  the bias.  The twenty blocks tile the array.
-/
import proofs.«155776_j91233695301736_2_alg».proof.Proof.Gen.KernelIdeal.Frame
import proofs.«155776_j91233695301736_2_alg».proof.Proof.GcnSpec
import proofs.«155776_j91233695301736_2_alg».proof.Proof.LibDotIdx
import proofs.«155776_j91233695301736_2_alg».proof.Proof.LibRowOps
import proofs.«155776_j91233695301736_2_alg».proof.Proof.Region0
import proofs.«155776_j91233695301736_2_alg».proof.Proof.Region1
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.GcnSpec

/-! ## The body's arithmetic at an index -/

/-- Entry `(p, q)` of what the body stores: row `p` of the staged features against column `q` of the joined weights,
    plus entry `q` of the joined bias. -/
theorem pay4_apply (v0 : Vec Ideal S5000x128 .f32) (v3 : Vec Ideal S128x32 .f32) (v7 : Vec Ideal S32 .f32)
    (p : Fin 5000) (q : Fin 32) :
    k4_pay1 v0 v3 v7 (ix2 p q) = (∑ k : Fin 128, v0 (ix2 p k) * v3 (ix2 k q)) + v7 (ix1 q) := by
  unfold k4_pay1
  refine (addf_apply _ _ _).trans ?_
  refine congrArg₂ (· + ·) ?_ ?_
  · exact (DotIdx.matmul_plain_zero_apply _ none _ _ p q).trans
      (Finset.sum_congr rfl fun k _ => congrArg₂ (· * ·) (congrFun (shapeCast_self v0 _) _) (congrFun (shapeCast_self v3 _) _))
  · exact (Cert.LibRowOps.rowVec_kernel_apply _ _ _ p q).trans (congrFun (shapeCast_self v7 _) _)

/-- The same entry when the staged blocks are rows of the whole array `H`, the whole matrix `W` and the whole vector `b`. -/
theorem pay4_at (v0 : Vec Ideal S5000x128 .f32) (v3 : Vec Ideal S128x32 .f32) (v7 : Vec Ideal S32 .f32)
    (H : S100000x128.Idx → EReal) (W : S128x32.Idx → EReal) (b : S32.Idx → EReal)
    (p : Fin 5000) (q : Fin 32) (r : Fin 100000)
    (h0 : ∀ k : Fin 128, v0 (ix2 p k) = H (ix2 r k)) (h1 : ∀ k : Fin 128, v3 (ix2 k q) = W (ix2 k q))
    (h2 : v7 (ix1 q) = b (ix1 q)) :
    k4_pay1 v0 v3 v7 (ix2 p q) = headAt (M := 100000) (K := 128) (N := 32) H W b r q := by
  rw [pay4_apply]
  unfold headAt
  rw [h2]
  exact congrArg (· + b (ix1 q)) (Finset.sum_congr rfl fun k _ => by rw [h0, h1])

/-! ## Where a block sits in its array -/

theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- Row `p` of point `t`'s block is row `5000 t + p` of the array. -/
def row4 (t : Fin cfg4.N) (p : Fin 5000) : Fin 100000 :=
  ⟨t.val * 5000 + p.val, by have := lt_of_lt_of_eq t.isLt N_4; have := p.isLt; omega⟩

variable (V : (c : Dev nD) → (b : Ref sig .tc) → Buf (Elt Ideal) ((c : Thread nD τ).loc b))

theorem blk4_0 (c : Dev nD) (t : Fin cfg4.N) (p : Fin 5000) (k : Fin 128) :
    iblk4 V c 0 t (ix2 p k) = V c main_v38 (ix2 (row4 t p) k) := by
  obtain ⟨e0, e1, -⟩ := idx_facts4 t
  show V c main_v38 (((cfg4.win 0).blk t).view.emb (ix2 p k)) = V c main_v38 (ix2 (row4 t p) k)
  refine congrArg (V c main_v38) ?_
  funext a; apply Fin.ext
  match a with
  | ⟨0, _⟩ => show win4_0.index t (0 : Fin 2) * 5000 + 1 * p.val = t.val * 5000 + p.val; rw [e0]; omega
  | ⟨1, _⟩ => show win4_0.index t (1 : Fin 2) * 128 + 1 * k.val = k.val; rw [e1]; omega

theorem blk4_1 (c : Dev nD) (t : Fin cfg4.N) (k : Fin 128) (q : Fin 32) :
    iblk4 V c 1 t (ix2 k q) = V c main_v39 (ix2 k q) := by
  obtain ⟨-, -, e2, e3, -⟩ := idx_facts4 t
  show V c main_v39 (((cfg4.win 1).blk t).view.emb (ix2 k q)) = V c main_v39 (ix2 k q)
  refine congrArg (V c main_v39) ?_
  funext a; apply Fin.ext
  match a with
  | ⟨0, _⟩ => show win4_1.index t (0 : Fin 2) * 128 + 1 * k.val = k.val; rw [e2]; omega
  | ⟨1, _⟩ => show win4_1.index t (1 : Fin 2) * 32 + 1 * q.val = q.val; rw [e3]; omega

theorem blk4_2 (c : Dev nD) (t : Fin cfg4.N) (q : Fin 32) :
    iblk4 V c 2 t (ix1 q) = V c main_v40 (ix1 q) := by
  obtain ⟨-, -, -, -, e4, -⟩ := idx_facts4 t
  show V c main_v40 (((cfg4.win 2).blk t).view.emb (ix1 q)) = V c main_v40 (ix1 q)
  refine congrArg (V c main_v40) ?_
  funext a; apply Fin.ext
  match a with
  | ⟨0, _⟩ => show win4_2.index t (0 : Fin 1) * 32 + 1 * q.val = q.val; rw [e4]; omega

theorem emb4_3 (t : Fin cfg4.N) (p : Fin 5000) (q : Fin 32) :
    ((cfg4.win 3).blk t).view.emb (ix2 p q) = ix2 (row4 t p) q := by
  obtain ⟨-, -, -, -, -, e5, e6⟩ := idx_facts4 t
  funext a; apply Fin.ext
  match a with
  | ⟨0, _⟩ => show win4_3.index t (0 : Fin 2) * 5000 + 1 * p.val = t.val * 5000 + p.val; rw [e5]; omega
  | ⟨1, _⟩ => show win4_3.index t (1 : Fin 2) * 32 + 1 * q.val = q.val; rw [e6]; omega

/-! ## What a point writes back, and the array after the last point -/

theorem flushed4 (c : Dev nD) (t : Fin cfg4.N) :
    (dat4 V c).flushed 3 t = ((cfg4.win 3).blk t).view.read (Elt Ideal)
      (ofCoords (headAt (M := 100000) (K := 128) (N := 32) (V c main_v38) (V c main_v39) (V c main_v40))) := by
  show (cfg4.win 3).cut (grid4.coords t) ((dat4 V c).after 3 t) = _
  rw [after4_3]
  unfold out4_3
  rw [View.canon_unit_zero zeros2]
  simp only [View.ld_unit_zero (S := S5000x128) zeros2, View.ld_unit_zero (S := S128x32) zeros2,
    View.ld_unit_zero (S := S32) zeros1]
  funext j
  obtain ⟨p, q, rfl⟩ : ∃ (p : Fin 5000) (q : Fin 32), j = ix2 p q := ⟨j 0, j 1, eq_ix2 j⟩
  show k4_pay1 (iblk4 V c 0 t) (iblk4 V c 1 t) (iblk4 V c 2 t) (ix2 p q)
    = ofCoords (headAt (M := 100000) (K := 128) (N := 32) (V c main_v38) (V c main_v39) (V c main_v40))
        (((cfg4.win 3).blk t).view.emb (ix2 p q))
  rw [emb4_3 t p q, ofCoords_apply]
  exact pay4_at (iblk4 V c 0 t) (iblk4 V c 1 t) (iblk4 V c 2 t) (V c main_v38) (V c main_v39) (V c main_v40) p q (row4 t p)
    (fun k => blk4_0 V c t p k) (fun k => blk4_1 V c t k q) (blk4_2 V c t q)

theorem mem_blk4 (t : Fin cfg4.N) (i : S100000x32.Idx) :
    i ∈ ((cfg4.win 3).blk t).view.set ↔ ∀ a : Fin 2, win4_3.index t a * S5000x32.size a ≤ (i a).val
      ∧ (i a).val < win4_3.index t a * S5000x32.size a + S5000x32.size a := by
  show i ∈ ((View.whole main_v41).slice (win4_3.rect t)).set ↔ _
  rw [View.set_slice_whole, Rect.mem_set_unit]
  exact Iff.rfl

theorem cover4 (i : S100000x32.Idx) :
    ∃ t : Fin cfg4.N, (cfg4.win 3).flush t = true ∧ i ∈ ((cfg4.win 3).blk t).view.set := by
  have hi0 : (i 0).val < 100000 := (i 0).isLt
  have hi1 : (i 1).val < 32 := (i 1).isLt
  obtain ⟨t, ht⟩ : ∃ t : Fin cfg4.N, t.val = (i 0).val / 5000 :=
    ⟨⟨(i 0).val / 5000, lt_of_lt_of_eq (by omega : (i 0).val / 5000 < 20) N_4.symm⟩, rfl⟩
  obtain ⟨-, -, -, -, -, e5, e6⟩ := idx_facts4 t
  refine ⟨t, flush4_3 t, ?_⟩
  rw [mem_blk4]
  intro a
  match a with
  | ⟨0, _⟩ =>
    show win4_3.index t (0 : Fin 2) * 5000 ≤ (i 0).val ∧ (i 0).val < win4_3.index t (0 : Fin 2) * 5000 + 5000
    rw [e5, ht]; omega
  | ⟨1, _⟩ =>
    show win4_3.index t (1 : Fin 2) * 32 ≤ (i 1).val ∧ (i 1).val < win4_3.index t (1 : Fin 2) * 32 + 32
    rw [e6]; omega

/-- The output array after the call: the head of the arrays the region found. -/
theorem final4 (c : Dev nD) :
    (dat4 V c).arrAt 3 cfg4.N
      = ofCoords (headAt (M := 100000) (K := 128) (N := 32) (V c main_v38) (V c main_v39) (V c main_v40)) :=
  (dat4 V c).arrAt_eq_of_cover 3 _ (fun t _ => flushed4 V c t) cover4

end Cert.KernelIdeal.Whole

end
-- ==== Proof.GcnTerms.lean ====
/-
  The whole-array functions the five-call program computes, written over the stages of the reference program it is
  compared with: the node weights as one column, one layer (scaled product, rows gathered by source, added up by
  destination, scaled, shifted and clipped), and the joined head.  The index arrays, the node weights and the zero table
  are the reference's own stages: the two programs compute them by the same host operations on the same edge list.
-/
import proofs.«155776_j91233695301736_2_alg».proof.Proof.Gen.ReferenceIdeal.Read
import proofs.«155776_j91233695301736_2_alg».proof.Proof.Gen.KernelIdeal
import proofs.«155776_j91233695301736_2_alg».proof.Proof.GcnSpec

noncomputable section

namespace Cert.GcnTerms

open Idealize.ShloMosaic Cert.GcnSpec Cert.ReferenceIdeal Cert.ReferenceIdeal.Gen Cert.ReferenceIdeal.Read

/-- The node weights `1 / √(max deg 1)` laid out as one column. -/
def wcol (x1 : (⟨S2x1600000, .i32⟩ : BufTy).Contents (Elt Ideal)) : FVec Ideal Cert.KernelIdeal.S100000x1 .f32 :=
  broadcastInDim Cert.KernelIdeal.S100000x1 ![0] Cert.KernelIdeal.Facts₀.bcast_S100000_S100000x1_0 (val_main_v14 (F := Ideal) x1)

/-- The rows of a table gathered by (wrapped) source index and added up by destination index. -/
def agg (T : FVec Ideal S100000x128 .f32) (x1 : (⟨S2x1600000, .i32⟩ : BufTy).Contents (Elt Ideal)) :
    FVec Ideal S100000x128 .f32 :=
  Host.scatterAdd (F := Ideal) scatter_S100000x128_S1700000x1_S1700000x128_1_0_0_1 (val_main_v40 (F := Ideal))
    (val_main_v41 (F := Ideal) x1)
    (Host.gather gather_S100000x128_S1700000x1_S1700000x128_1_0_n_n_0_1_1128 T (val_main_v35 (F := Ideal) x1))

/-- One layer as the five-call program computes it. -/
def KL (h : FVec Ideal S100000x128 .f32) (W : FVec Ideal S128x128 .f32) (b : FVec Ideal S128 .f32)
    (x1 : (⟨S2x1600000, .i32⟩ : BufTy).Contents (Elt Ideal)) : FVec Ideal S100000x128 .f32 :=
  ofCoords (biasReluAt (M := 100000) (N := 128)
    (agg (ofCoords (mmScaleAt (M := 100000) (K := 128) (N := 128) h W (wcol x1))) x1) (wcol x1) b)

end Cert.GcnTerms

end
-- ==== Proof.KChain.lean ====
/-
  The contents of the five-call program's buffers, boundary by boundary, as functions of the launch memory.

  Between two kernel calls the host operations compute new buffers from old ones; a kernel call replaces its output
  array by the whole-array function of its input arrays found for it call by call; every other buffer is carried over
  unchanged.  Walking the ten segments in order gives the two results at the return: the two halves of the joined head
  of two layers, each layer the scaled product of its input gathered by source, added up by destination, scaled,
  shifted and clipped.
-/
import proofs.«155776_j91233695301736_2_alg».proof.Proof.Gen.KernelIdeal.Frame
import proofs.«155776_j91233695301736_2_alg».proof.Proof.Region0
import proofs.«155776_j91233695301736_2_alg».proof.Proof.Region1
import proofs.«155776_j91233695301736_2_alg».proof.Proof.Region2
import proofs.«155776_j91233695301736_2_alg».proof.Proof.Region3
import proofs.«155776_j91233695301736_2_alg».proof.Proof.Region4
import proofs.«155776_j91233695301736_2_alg».proof.Proof.GcnTerms
import Idealize.ShloMosaic.Lib.StableHlo.Run

set_option maxRecDepth 16384

noncomputable section

namespace Cert.KernelIdeal.Whole

open Idealize.ShloMosaic Idealize.ShloMosaic.TcCoe Idealize.SL.Sem Idealize.ShloMosaic.ValueIdx Idealize.ShloMosaic.StableHlo
open Idealize.ShloMosaic.Pipeline (Dat Cfg Window)
open Cert.KernelIdeal Cert.KernelIdeal.Gen Cert.GcnSpec Cert.GcnTerms

variable (m : (ℓ : Loc nD τ sig) → Buf (Elt Ideal) ℓ) (ρ : Dev nD → PrngReg) (c : Dev nD)

/-- A buffer none of a stretch's operations writes holds after the stretch what it held before. -/
macro "host_keep " b:term : tactic => `(tactic|
  exact StableHlo.after_of_forall_not_mem (b := Proc.devRef .tc $b) _ _ (List.forall_iff_forall_mem.mp (by
    simp only [hostOps0, hostOps1, hostOps3, hostOps4, hostOps5, List.flatten_cons, List.flatten_nil, List.append_nil,
      List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-! ## Buffers carried over unchanged -/

theorem W1_arg0_keep0 : W1 m ρ c (Proc.devRef .tc main_arg0) = W0 m ρ c (Proc.devRef .tc main_arg0) :=
  calc W1 m ρ c (Proc.devRef .tc main_arg0)
    _ = W0 m ρ c (Proc.devRef .tc main_arg0) := by host_keep main_arg0
theorem W1_arg0 : W1 m ρ c (Proc.devRef .tc main_arg0) = (m ((c : Thread nD τ).loc main_arg0)) :=
  (W1_arg0_keep0 m ρ c).trans rfl

theorem W1_arg2_keep0 : W1 m ρ c (Proc.devRef .tc main_arg2) = W0 m ρ c (Proc.devRef .tc main_arg2) :=
  calc W1 m ρ c (Proc.devRef .tc main_arg2)
    _ = W0 m ρ c (Proc.devRef .tc main_arg2) := by host_keep main_arg2
theorem W1_arg2 : W1 m ρ c (Proc.devRef .tc main_arg2) = (m ((c : Thread nD τ).loc main_arg2)) :=
  (W1_arg2_keep0 m ρ c).trans rfl

theorem W3_arg3_keep0 : W3 m ρ c (Proc.devRef .tc main_arg3) = W0 m ρ c (Proc.devRef .tc main_arg3) :=
  calc W3 m ρ c (Proc.devRef .tc main_arg3)
    _ = W2 m ρ c (Proc.devRef .tc main_arg3) := by host_keep main_arg3
    _ = W1 m ρ c (Proc.devRef .tc main_arg3) := W2_of_ne m ρ c main_arg3 (by decide)
    _ = W0 m ρ c (Proc.devRef .tc main_arg3) := by host_keep main_arg3
theorem W3_arg3 : W3 m ρ c (Proc.devRef .tc main_arg3) = (m ((c : Thread nD τ).loc main_arg3)) :=
  (W3_arg3_keep0 m ρ c).trans rfl

theorem W4_arg4_keep0 : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_keep main_arg4
    _ = W1 m ρ c (Proc.devRef .tc main_arg4) := W2_of_ne m ρ c main_arg4 (by decide)
    _ = W0 m ρ c (Proc.devRef .tc main_arg4) := by host_keep main_arg4
theorem W4_arg4 : W4 m ρ c (Proc.devRef .tc main_arg4) = (m ((c : Thread nD τ).loc main_arg4)) :=
  (W4_arg4_keep0 m ρ c).trans rfl

theorem W6_arg5_keep0 : W6 m ρ c (Proc.devRef .tc main_arg5) = W0 m ρ c (Proc.devRef .tc main_arg5) :=
  calc W6 m ρ c (Proc.devRef .tc main_arg5)
    _ = W5 m ρ c (Proc.devRef .tc main_arg5) := by host_keep main_arg5
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := by host_keep main_arg5
    _ = W1 m ρ c (Proc.devRef .tc main_arg5) := W2_of_ne m ρ c main_arg5 (by decide)
    _ = W0 m ρ c (Proc.devRef .tc main_arg5) := by host_keep main_arg5
theorem W6_arg5 : W6 m ρ c (Proc.devRef .tc main_arg5) = (m ((c : Thread nD τ).loc main_arg5)) :=
  (W6_arg5_keep0 m ρ c).trans rfl

theorem W7_arg6_keep0 : W7 m ρ c (Proc.devRef .tc main_arg6) = W0 m ρ c (Proc.devRef .tc main_arg6) :=
  calc W7 m ρ c (Proc.devRef .tc main_arg6)
    _ = W6 m ρ c (Proc.devRef .tc main_arg6) := W7_of_ne m ρ c main_arg6 (by decide)
    _ = W5 m ρ c (Proc.devRef .tc main_arg6) := by host_keep main_arg6
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := by host_keep main_arg6
    _ = W1 m ρ c (Proc.devRef .tc main_arg6) := W2_of_ne m ρ c main_arg6 (by decide)
    _ = W0 m ρ c (Proc.devRef .tc main_arg6) := by host_keep main_arg6
theorem W7_arg6 : W7 m ρ c (Proc.devRef .tc main_arg6) = (m ((c : Thread nD τ).loc main_arg6)) :=
  (W7_arg6_keep0 m ρ c).trans rfl

theorem W7_arg7_keep0 : W7 m ρ c (Proc.devRef .tc main_arg7) = W0 m ρ c (Proc.devRef .tc main_arg7) :=
  calc W7 m ρ c (Proc.devRef .tc main_arg7)
    _ = W6 m ρ c (Proc.devRef .tc main_arg7) := W7_of_ne m ρ c main_arg7 (by decide)
    _ = W5 m ρ c (Proc.devRef .tc main_arg7) := by host_keep main_arg7
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := by host_keep main_arg7
    _ = W1 m ρ c (Proc.devRef .tc main_arg7) := W2_of_ne m ρ c main_arg7 (by decide)
    _ = W0 m ρ c (Proc.devRef .tc main_arg7) := by host_keep main_arg7
theorem W7_arg7 : W7 m ρ c (Proc.devRef .tc main_arg7) = (m ((c : Thread nD τ).loc main_arg7)) :=
  (W7_arg7_keep0 m ρ c).trans rfl

theorem W7_arg8_keep0 : W7 m ρ c (Proc.devRef .tc main_arg8) = W0 m ρ c (Proc.devRef .tc main_arg8) :=
  calc W7 m ρ c (Proc.devRef .tc main_arg8)
    _ = W6 m ρ c (Proc.devRef .tc main_arg8) := W7_of_ne m ρ c main_arg8 (by decide)
    _ = W5 m ρ c (Proc.devRef .tc main_arg8) := by host_keep main_arg8
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := by host_keep main_arg8
    _ = W1 m ρ c (Proc.devRef .tc main_arg8) := W2_of_ne m ρ c main_arg8 (by decide)
    _ = W0 m ρ c (Proc.devRef .tc main_arg8) := by host_keep main_arg8
theorem W7_arg8 : W7 m ρ c (Proc.devRef .tc main_arg8) = (m ((c : Thread nD τ).loc main_arg8)) :=
  (W7_arg8_keep0 m ρ c).trans rfl

theorem W7_arg9_keep0 : W7 m ρ c (Proc.devRef .tc main_arg9) = W0 m ρ c (Proc.devRef .tc main_arg9) :=
  calc W7 m ρ c (Proc.devRef .tc main_arg9)
    _ = W6 m ρ c (Proc.devRef .tc main_arg9) := W7_of_ne m ρ c main_arg9 (by decide)
    _ = W5 m ρ c (Proc.devRef .tc main_arg9) := by host_keep main_arg9
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := by host_keep main_arg9
    _ = W1 m ρ c (Proc.devRef .tc main_arg9) := W2_of_ne m ρ c main_arg9 (by decide)
    _ = W0 m ρ c (Proc.devRef .tc main_arg9) := by host_keep main_arg9
theorem W7_arg9 : W7 m ρ c (Proc.devRef .tc main_arg9) = (m ((c : Thread nD τ).loc main_arg9)) :=
  (W7_arg9_keep0 m ρ c).trans rfl

theorem W2_v5_keep1 : W2 m ρ c (Proc.devRef .tc main_v5) = W1 m ρ c (Proc.devRef .tc main_v5) :=
  calc W2 m ρ c (Proc.devRef .tc main_v5)
    _ = W1 m ρ c (Proc.devRef .tc main_v5) := W2_of_ne m ρ c main_v5 (by decide)

theorem W5_v5_keep1 : W5 m ρ c (Proc.devRef .tc main_v5) = W1 m ρ c (Proc.devRef .tc main_v5) :=
  calc W5 m ρ c (Proc.devRef .tc main_v5)
    _ = W4 m ρ c (Proc.devRef .tc main_v5) := W5_of_ne m ρ c main_v5 (by decide)
    _ = W3 m ρ c (Proc.devRef .tc main_v5) := W4_of_ne m ρ c main_v5 (by decide)
    _ = W2 m ρ c (Proc.devRef .tc main_v5) := by host_keep main_v5
    _ = W1 m ρ c (Proc.devRef .tc main_v5) := W2_of_ne m ρ c main_v5 (by decide)

theorem W2_v6_keep1 : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

theorem W5_v6_keep1 : W5 m ρ c (Proc.devRef .tc main_v6) = W1 m ρ c (Proc.devRef .tc main_v6) :=
  calc W5 m ρ c (Proc.devRef .tc main_v6)
    _ = W4 m ρ c (Proc.devRef .tc main_v6) := W5_of_ne m ρ c main_v6 (by decide)
    _ = W3 m ρ c (Proc.devRef .tc main_v6) := W4_of_ne m ρ c main_v6 (by decide)
    _ = W2 m ρ c (Proc.devRef .tc main_v6) := by host_keep main_v6
    _ = W1 m ρ c (Proc.devRef .tc main_v6) := W2_of_ne m ρ c main_v6 (by decide)

theorem W3_v14_keep1 : W3 m ρ c (Proc.devRef .tc main_v14) = W1 m ρ c (Proc.devRef .tc main_v14) :=
  calc W3 m ρ c (Proc.devRef .tc main_v14)
    _ = W2 m ρ c (Proc.devRef .tc main_v14) := by host_keep main_v14
    _ = W1 m ρ c (Proc.devRef .tc main_v14) := (W2_arr m ρ c 2).trans (((dat0 (V1 m ρ) c).arrAt_in 2 rfl _).trans (A_eq0 (V1 m ρ) c 2))

theorem W4_v14_keep1 : W4 m ρ c (Proc.devRef .tc main_v14) = W1 m ρ c (Proc.devRef .tc main_v14) :=
  calc W4 m ρ c (Proc.devRef .tc main_v14)
    _ = W3 m ρ c (Proc.devRef .tc main_v14) := (W4_arr m ρ c 1).trans (((dat1 (V3 m ρ) c).arrAt_in 1 rfl _).trans (A_eq1 (V3 m ρ) c 1))
    _ = W2 m ρ c (Proc.devRef .tc main_v14) := by host_keep main_v14
    _ = W1 m ρ c (Proc.devRef .tc main_v14) := (W2_arr m ρ c 2).trans (((dat0 (V1 m ρ) c).arrAt_in 2 rfl _).trans (A_eq0 (V1 m ρ) c 2))

theorem W6_v14_keep1 : W6 m ρ c (Proc.devRef .tc main_v14) = W1 m ρ c (Proc.devRef .tc main_v14) :=
  calc W6 m ρ c (Proc.devRef .tc main_v14)
    _ = W5 m ρ c (Proc.devRef .tc main_v14) := by host_keep main_v14
    _ = W4 m ρ c (Proc.devRef .tc main_v14) := (W5_arr m ρ c 2).trans (((dat2 (V4 m ρ) c).arrAt_in 2 rfl _).trans (A_eq2 (V4 m ρ) c 2))
    _ = W3 m ρ c (Proc.devRef .tc main_v14) := (W4_arr m ρ c 1).trans (((dat1 (V3 m ρ) c).arrAt_in 1 rfl _).trans (A_eq1 (V3 m ρ) c 1))
    _ = W2 m ρ c (Proc.devRef .tc main_v14) := by host_keep main_v14
    _ = W1 m ρ c (Proc.devRef .tc main_v14) := (W2_arr m ρ c 2).trans (((dat0 (V1 m ρ) c).arrAt_in 2 rfl _).trans (A_eq0 (V1 m ρ) c 2))

theorem W8_v38_keep7 : W8 m ρ c (Proc.devRef .tc main_v38) = W7 m ρ c (Proc.devRef .tc main_v38) :=
  calc W8 m ρ c (Proc.devRef .tc main_v38)
    _ = W7 m ρ c (Proc.devRef .tc main_v38) := by host_keep main_v38

/-! ## Before the first call: the edge lists and the node weights -/

theorem W1_v5 : W1 m ρ c (Proc.devRef .tc main_v5) = Cert.ReferenceIdeal.Read.val_main_v6 (F := Ideal) (m ((c : Thread nD τ).loc main_arg1)) := by
  show StableHlo.after hostOps0 (W0 m ρ c) (Proc.devRef .tc main_v5) = _
  after_results
  try rfl

theorem W1_v6 : W1 m ρ c (Proc.devRef .tc main_v6) = Cert.ReferenceIdeal.Read.val_main_v7 (F := Ideal) (m ((c : Thread nD τ).loc main_arg1)) := by
  show StableHlo.after hostOps0 (W0 m ρ c) (Proc.devRef .tc main_v6) = _
  after_results
  try rfl

theorem W1_v14 : W1 m ρ c (Proc.devRef .tc main_v14) = wcol (m ((c : Thread nD τ).loc main_arg1)) := by
  show StableHlo.after hostOps0 (W0 m ρ c) (Proc.devRef .tc main_v14) = _
  after_results
  try rfl

/-! ## The first layer -/

theorem W2_v15 : W2 m ρ c (Proc.devRef .tc main_v15) = (ofCoords (mmScaleAt (M := 100000) (K := 128) (N := 128) (m ((c : Thread nD τ).loc main_arg0)) (m ((c : Thread nD τ).loc main_arg2)) (wcol (m ((c : Thread nD τ).loc main_arg1))))) := by
  refine (W2_arr m ρ c 3).trans ((final0 (V1 m ρ) c).trans ?_)
  show ofCoords (mmScaleAt (M := 100000) (K := 128) (N := 128) (W1 m ρ c (Proc.devRef .tc main_arg0))
    (W1 m ρ c (Proc.devRef .tc main_arg2)) (W1 m ρ c (Proc.devRef .tc main_v14))) = _
  rw [W1_arg0 m ρ c, W1_arg2 m ρ c, W1_v14 m ρ c]

theorem W3_v25 : W3 m ρ c (Proc.devRef .tc main_v25) = agg (ofCoords (mmScaleAt (M := 100000) (K := 128) (N := 128) (m ((c : Thread nD τ).loc main_arg0)) (m ((c : Thread nD τ).loc main_arg2)) (wcol (m ((c : Thread nD τ).loc main_arg1))))) (m ((c : Thread nD τ).loc main_arg1)) := by
  show StableHlo.after hostOps1 (W2 m ρ c) (Proc.devRef .tc main_v25) = _
  after_results
  rw [(W2_v5_keep1 m ρ c).trans (W1_v5 m ρ c), (W2_v6_keep1 m ρ c).trans (W1_v6 m ρ c), W2_v15 m ρ c]
  try rfl

theorem W4_v26 : W4 m ρ c (Proc.devRef .tc main_v26) = (KL (m ((c : Thread nD τ).loc main_arg0)) (m ((c : Thread nD τ).loc main_arg2)) (m ((c : Thread nD τ).loc main_arg3)) (m ((c : Thread nD τ).loc main_arg1))) := by
  refine (W4_arr m ρ c 3).trans ((final1 (V3 m ρ) c).trans ?_)
  show ofCoords (biasReluAt (M := 100000) (N := 128) (W3 m ρ c (Proc.devRef .tc main_v25))
    (W3 m ρ c (Proc.devRef .tc main_v14)) (W3 m ρ c (Proc.devRef .tc main_arg3))) = _
  rw [W3_v25 m ρ c, (W3_v14_keep1 m ρ c).trans (W1_v14 m ρ c), W3_arg3 m ρ c]
  rfl

/-! ## The second layer -/

theorem W5_v27 : W5 m ρ c (Proc.devRef .tc main_v27) = (ofCoords (mmScaleAt (M := 100000) (K := 128) (N := 128) (KL (m ((c : Thread nD τ).loc main_arg0)) (m ((c : Thread nD τ).loc main_arg2)) (m ((c : Thread nD τ).loc main_arg3)) (m ((c : Thread nD τ).loc main_arg1))) (m ((c : Thread nD τ).loc main_arg4)) (wcol (m ((c : Thread nD τ).loc main_arg1))))) := by
  refine (W5_arr m ρ c 3).trans ((final2 (V4 m ρ) c).trans ?_)
  show ofCoords (mmScaleAt (M := 100000) (K := 128) (N := 128) (W4 m ρ c (Proc.devRef .tc main_v26))
    (W4 m ρ c (Proc.devRef .tc main_arg4)) (W4 m ρ c (Proc.devRef .tc main_v14))) = _
  rw [W4_v26 m ρ c, W4_arg4 m ρ c, (W4_v14_keep1 m ρ c).trans (W1_v14 m ρ c)]

theorem W6_v37 : W6 m ρ c (Proc.devRef .tc main_v37) = agg (ofCoords (mmScaleAt (M := 100000) (K := 128) (N := 128) (KL (m ((c : Thread nD τ).loc main_arg0)) (m ((c : Thread nD τ).loc main_arg2)) (m ((c : Thread nD τ).loc main_arg3)) (m ((c : Thread nD τ).loc main_arg1))) (m ((c : Thread nD τ).loc main_arg4)) (wcol (m ((c : Thread nD τ).loc main_arg1))))) (m ((c : Thread nD τ).loc main_arg1)) := by
  have key : ∀ T : FVec Ideal S100000x128 .f32, W5 m ρ c (Proc.devRef .tc main_v27) = T →
      StableHlo.after hostOps3 (W5 m ρ c) (Proc.devRef .tc main_v37) = agg T (m ((c : Thread nD τ).loc main_arg1)) := by
    intro T hT
    after_results
    rw [(W5_v5_keep1 m ρ c).trans (W1_v5 m ρ c), (W5_v6_keep1 m ρ c).trans (W1_v6 m ρ c), hT]
    try rfl
  exact key _ (W5_v27 m ρ c)

theorem W7_v38 : W7 m ρ c (Proc.devRef .tc main_v38) = (KL (KL (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1))) := by
  refine (W7_arr m ρ c 3).trans ((final3 (V6 m ρ) c).trans ?_)
  show ofCoords (biasReluAt (M := 100000) (N := 128) (W6 m ρ c (Proc.devRef .tc main_v37))
    (W6 m ρ c (Proc.devRef .tc main_v14)) (W6 m ρ c (Proc.devRef .tc main_arg5))) = _
  rw [W6_v37 m ρ c, (W6_v14_keep1 m ρ c).trans (W1_v14 m ρ c), W6_arg5 m ρ c]
  rfl

/-! ## The joined head and its two halves -/

theorem W8_v39 : W8 m ρ c (Proc.devRef .tc main_v39) = (concatenate S128x32 1 [⟨S128x16, (m ((c : Thread nD τ).loc main_arg6))⟩, ⟨S128x16, (m ((c : Thread nD τ).loc main_arg8))⟩] concatenates_S128x16_S128x16_S128x32_d1) := by
  show StableHlo.after hostOps4 (W7 m ρ c) (Proc.devRef .tc main_v39) = _
  after_results
  rw [W7_arg6 m ρ c, W7_arg8 m ρ c]

theorem W8_v40 : W8 m ρ c (Proc.devRef .tc main_v40) = (concatenate S32 0 [⟨S16, (m ((c : Thread nD τ).loc main_arg7))⟩, ⟨S16, (m ((c : Thread nD τ).loc main_arg9))⟩] concatenates_S16_S16_S32_d0) := by
  show StableHlo.after hostOps4 (W7 m ρ c) (Proc.devRef .tc main_v40) = _
  after_results
  rw [W7_arg7 m ρ c, W7_arg9 m ρ c]

theorem W9_v41 : W9 m ρ c (Proc.devRef .tc main_v41) = (ofCoords (headAt (M := 100000) (K := 128) (N := 32) (KL (KL (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1))) (concatenate S128x32 1 [⟨S128x16, (m ((c : Thread nD τ).loc main_arg6))⟩, ⟨S128x16, (m ((c : Thread nD τ).loc main_arg8))⟩] concatenates_S128x16_S128x16_S128x32_d1) (concatenate S32 0 [⟨S16, (m ((c : Thread nD τ).loc main_arg7))⟩, ⟨S16, (m ((c : Thread nD τ).loc main_arg9))⟩] concatenates_S16_S16_S32_d0))) := by
  refine (W9_arr m ρ c 3).trans ((final4 (V8 m ρ) c).trans ?_)
  show ofCoords (headAt (M := 100000) (K := 128) (N := 32) (W8 m ρ c (Proc.devRef .tc main_v38))
    (W8 m ρ c (Proc.devRef .tc main_v39)) (W8 m ρ c (Proc.devRef .tc main_v40))) = _
  rw [(W8_v38_keep7 m ρ c).trans (W7_v38 m ρ c), W8_v39 m ρ c, W8_v40 m ρ c]

theorem W10_v42 : W10 m ρ c (Proc.devRef .tc main_v42)
    = extractStridedSlice S100000x16 ![0, 0] (ofCoords (headAt (M := 100000) (K := 128) (N := 32) (KL (KL (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1))) (concatenate S128x32 1 [⟨S128x16, (m ((c : Thread nD τ).loc main_arg6))⟩, ⟨S128x16, (m ((c : Thread nD τ).loc main_arg8))⟩] concatenates_S128x16_S128x16_S128x32_d1) (concatenate S32 0 [⟨S16, (m ((c : Thread nD τ).loc main_arg7))⟩, ⟨S16, (m ((c : Thread nD τ).loc main_arg9))⟩] concatenates_S16_S16_S32_d0))) slices_S100000x32_S100000x16_0_0 := by
  show StableHlo.after hostOps5 (W9 m ρ c) (Proc.devRef .tc main_v42) = _
  after_results
  rw [W9_v41 m ρ c]

theorem W10_v43 : W10 m ρ c (Proc.devRef .tc main_v43)
    = extractStridedSlice S100000x16 ![0, 16] (ofCoords (headAt (M := 100000) (K := 128) (N := 32) (KL (KL (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1))) (concatenate S128x32 1 [⟨S128x16, (m ((c : Thread nD τ).loc main_arg6))⟩, ⟨S128x16, (m ((c : Thread nD τ).loc main_arg8))⟩] concatenates_S128x16_S128x16_S128x32_d1) (concatenate S32 0 [⟨S16, (m ((c : Thread nD τ).loc main_arg7))⟩, ⟨S16, (m ((c : Thread nD τ).loc main_arg9))⟩] concatenates_S16_S16_S32_d0))) slices_S100000x32_S100000x16_0_16 := by
  show StableHlo.after hostOps5 (W9 m ρ c) (Proc.devRef .tc main_v43) = _
  after_results
  rw [W9_v41 m ρ c]

end Cert.KernelIdeal.Whole

end
-- ==== Proof.BridgeA.lean ====
/-
  The reference's layer as one function of the layer's input, its weights, its bias and the edge list: the gathered rows
  of the product `h · W`, each scaled by the product of the two gathered node weights, added up per destination, shifted
  by the bias and clipped at zero.  The reference's first layer is this function of the features; its second layer is
  this function of the first layer's result (it computes the edge lists and the node weights a second time, by the same
  operations).
-/
import proofs.«155776_j91233695301736_2_alg».proof.Proof.GcnTerms

noncomputable section

namespace Cert.GcnBridge

open Idealize.ShloMosaic Idealize.ShloMosaic.ValueIdx Cert.GcnSpec Cert.GcnTerms
open Cert.ReferenceIdeal Cert.ReferenceIdeal.Gen Cert.ReferenceIdeal.Read

/-- One layer as the reference computes it. -/
def RL (h : FVec Ideal S100000x128 .f32) (W : FVec Ideal S128x128 .f32) (b : FVec Ideal S128 .f32) (x1 : (⟨S2x1600000, .i32⟩ : BufTy).Contents (Elt Ideal)) :
    FVec Ideal S100000x128 .f32 :=
  maximumf (addf (Host.scatterAdd (F := Ideal) scatter_S100000x128_S1700000x1_S1700000x128_1_0_0_1 (val_main_v40 (F := Ideal)) (val_main_v41 (F := Ideal) x1)
      (mulf (Host.gather gather_S100000x128_S1700000x1_S1700000x128_1_0_n_n_0_1_1128 (Host.dotGeneral (F := Ideal) dot_S100000x128_S128x128_S100000x128_1_0_0_1_n_n none h W) (val_main_v35 (F := Ideal) x1))
        (val_main_v38 (F := Ideal) x1)))
    (val_main_v44 (F := Ideal) b)) (val_main_call0_v0 (F := Ideal))

theorem v46_eq (x0 : FVec Ideal S100000x128 .f32) (x1 : (⟨S2x1600000, .i32⟩ : BufTy).Contents (Elt Ideal)) (x2 : FVec Ideal S128x128 .f32) (x3 : FVec Ideal S128 .f32) :
    val_main_v46 (F := Ideal) x0 x1 x2 x3 = RL x0 x2 x3 x1 := by
  unfold val_main_v46 val_main_v45 val_main_v42 val_main_v39 val_main_v36 val_main_v4 RL
  rfl

end Cert.GcnBridge

end
-- ==== Proof.BridgeA2.lean ====
/-
  The reference's second layer is its layer function applied to the first layer's result.

  The reference computes the edge lists, the degrees, the node weights, the wrapped indices and the per-edge factor a
  second time for its second layer, by the same operations on the same edge list.  Stage by stage the second spelling
  is the first: each lemma unfolds one stage of each spelling and rewrites the stages below it.
-/
import proofs.«155776_j91233695301736_2_alg».proof.Proof.BridgeA

noncomputable section

namespace Cert.GcnBridge

open Idealize.ShloMosaic Idealize.ShloMosaic.ValueIdx Cert.GcnSpec Cert.GcnTerms
open Cert.ReferenceIdeal Cert.ReferenceIdeal.Gen Cert.ReferenceIdeal.Read

variable (x1 : (⟨S2x1600000, .i32⟩ : BufTy).Contents (Elt Ideal))

theorem e48 : val_main_v48 (F := Ideal) = val_main_v5 (F := Ideal) := by unfold val_main_v48 val_main_v5; rfl
theorem e49 : val_main_v49 (F := Ideal) x1 = val_main_v6 (F := Ideal) x1 := by unfold val_main_v49 val_main_v6; rw [e48]
theorem e50 : val_main_v50 (F := Ideal) x1 = val_main_v7 (F := Ideal) x1 := by unfold val_main_v50 val_main_v7; rw [e48]

/-- The degrees. -/
theorem e54 : val_main_v54 (F := Ideal) x1 = val_main_v11 (F := Ideal) x1 := by
  unfold val_main_v54 val_main_v11 val_main_v53 val_main_v10 val_main_v52 val_main_v9 val_main_v51 val_main_v8 val_main_cst_8 val_main_cst val_main_cst_9 val_main_cst_0
  rw [e50]

/-- The node weights. -/
theorem e57 : val_main_v57 (F := Ideal) x1 = val_main_v14 (F := Ideal) x1 := by
  unfold val_main_v57 val_main_v14 val_main_v56 val_main_v13 val_main_v55 val_main_v12 val_main_cst_10 val_main_cst_1
  rw [e54]

/-- The wrapped source index, as the node weights are gathered by it. -/
theorem e63 : val_main_v63 (F := Ideal) x1 = val_main_v20 (F := Ideal) x1 := by
  unfold val_main_v63 val_main_v20 val_main_v62 val_main_v19 val_main_v59 val_main_v16 val_main_v61 val_main_v18 val_main_v58 val_main_v15 val_main_v60 val_main_v17 val_main_c_11 val_main_c val_main_c_12 val_main_c_2
  rw [e49]

/-- The wrapped destination index. -/
theorem e70 : val_main_v70 (F := Ideal) x1 = val_main_v27 (F := Ideal) x1 := by
  unfold val_main_v70 val_main_v27 val_main_v69 val_main_v26 val_main_v66 val_main_v23 val_main_v68 val_main_v25 val_main_v65 val_main_v22 val_main_v67 val_main_v24 val_main_c_13 val_main_c_3 val_main_c_14 val_main_c_4
  rw [e50]

/-- The wrapped source index, as the rows are gathered by it. -/
theorem e78 : val_main_v78 (F := Ideal) x1 = val_main_v35 (F := Ideal) x1 := by
  unfold val_main_v78 val_main_v35 val_main_v77 val_main_v34 val_main_v74 val_main_v31 val_main_v76 val_main_v33 val_main_v73 val_main_v30 val_main_v75 val_main_v32 val_main_c_15 val_main_c_5 val_main_c_16 val_main_c_6
  rw [e49]

/-- The per-edge factor laid along the columns. -/
theorem e81 : val_main_v81 (F := Ideal) x1 = val_main_v38 (F := Ideal) x1 := by
  unfold val_main_v81 val_main_v38 val_main_v80 val_main_v37 val_main_v72 val_main_v29 val_main_v64 val_main_v21 val_main_v71 val_main_v28
  rw [e57, e63, e70]

theorem e83 : val_main_v83 (F := Ideal) = val_main_v40 (F := Ideal) := by unfold val_main_v83 val_main_v40 val_main_cst_17 val_main_cst_7; rfl
theorem e84 : val_main_v84 (F := Ideal) x1 = val_main_v41 (F := Ideal) x1 := by unfold val_main_v84 val_main_v41; rw [e50]
theorem e87 (b : FVec Ideal S128 .f32) : val_main_v87 (F := Ideal) b = val_main_v44 (F := Ideal) b := by unfold val_main_v87 val_main_v44 val_main_v86 val_main_v43; rfl
theorem ecall : val_main_call1_v0 (F := Ideal) = val_main_call0_v0 (F := Ideal) := by unfold val_main_call1_v0 val_main_call0_v0 val_main_call1_cst val_main_call0_cst; rfl

theorem v89_eq (x0 : FVec Ideal S100000x128 .f32) (x2 : FVec Ideal S128x128 .f32) (x3 : FVec Ideal S128 .f32)
    (x4 : FVec Ideal S128x128 .f32) (x5 : FVec Ideal S128 .f32) :
    val_main_v89 (F := Ideal) x0 x1 x2 x3 x4 x5 = RL (val_main_v46 (F := Ideal) x0 x1 x2 x3) x4 x5 x1 := by
  unfold val_main_v89 val_main_v88 val_main_v85 val_main_v82 val_main_v79 val_main_v47 RL
  rw [e83, e84 x1, e81 x1, e78 x1, e87, ecall]

end Cert.GcnBridge

end
-- ==== Proof.LibScatter.lean ====
/-
  A gather of rows, a scatter of rows, and a column overwritten, each read at an index.

  Three arrangements of the host's indexed operations over a table of `N` rows:

  * `x[idx]` for a table `x : [N, C]` and one index per result row, `idx : [R, 1]`: result row `e` is the table's
    row at the start index `idx[e, 0]`, read as a signed integer and clamped into `[0, N - 1]`;
  * the accumulating scatter of `R` update rows (or `R` update scalars) into a table of `N` rows (or `N` scalars) at one
    index per update: over the extended reals entry `(n, l)` ends at the operand's entry plus the sum of the updates'
    entries `(e, l)` over the updates `e` whose index, read signed and NOT clamped, is `n`; an update whose index is
    outside the table contributes nothing;
  * the overwriting scatter of one column: `x.at[:, k].set(v)` for `x : [R, C]`, `v : [R]`, the column `k` given by
    a one-element index vector: entry `(e, l)` ends at `v e` when `l` is that column and is unchanged otherwise.
-/
import Idealize.ShloMosaic.Lib.ValueIdx
import Idealize.ShloMosaic.PureOps.Ideal.Laws

noncomputable section

namespace Cert.LibScatter

open Idealize.ShloMosaic Idealize.ShloMosaic.ValueIdx

variable {N R C w : ℕ}

/-! ## The dimension numbers -/

/-- `x[idx]` along axis 0 of a table `[N, C]` at start indices `[R, 1]`: whole rows are taken. -/
abbrev rowGatherDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ :=
  ⟨[1], [0], [], [], [0], 1, ![1, C], wf⟩

/-- Update rows `[R, C]` scattered into a table `[N, C]` at scatter indices `[R, 1]`. -/
abbrev rowScatterDims (N R C : ℕ)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ :=
  ⟨[1], [0], [0], 1, wf⟩

/-- Update scalars `[R]` scattered into a vector `[N]` at scatter indices `[R, 1]`. -/
abbrev vecScatterDims (N R : ℕ)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ :=
  ⟨[], [0], [0], 1, wf⟩

/-- A column `[R]` written into a matrix `[R, C]` at the column a one-element index vector names. -/
abbrev colSetDims (R C : ℕ)
    (wf : ScatterDims.WF ⟨2, ![R, C]⟩ ⟨1, ![1]⟩ ⟨1, ![R]⟩ [0] [1] [1] 0) :
    ScatterDims ⟨2, ![R, C]⟩ ⟨1, ![1]⟩ ⟨1, ![R]⟩ :=
  ⟨[0], [1], [1], 0, wf⟩

/-! ## Where an update lands -/

/-- An update lands on the operand index `i` exactly when on every axis its start, read signed, plus its window
    coordinate is `i`'s coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · rename_i h
    constructor
    · intro he a
      have h2 := congrFun (Option.some.inj he) a
      have h3 : (d.start j idx a + (d.window j a : ℤ)).toNat = (i a).val := congrArg Fin.val h2
      have := (h a).1
      omega
    · intro he
      congr 1
      funext a
      apply Fin.ext
      show (d.start j idx a + (d.window j a : ℤ)).toNat = (i a).val
      have := he a
      omega
  · rename_i h
    constructor
    · intro he; cases he
    · intro he
      exfalso; apply h
      intro a
      have := he a
      have := (i a).isLt
      omega

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-! ## The accumulating scatters, over the extended reals -/

/-- On the scattered axis a row update's start plus window coordinate is its index, read signed. -/
theorem rowScatter_axis0 (wf : ScatterDims.WF ⟨2, ![N, C]⟩ ⟨2, ![R, 1]⟩ ⟨2, ![R, C]⟩ [1] [0] [0] 1)
    (idx : IVec ⟨2, ![R, 1]⟩ w) (e : Fin R) (l' : Fin C) :
    (rowScatterDims N R C wf).start (ix2 e l') idx 0 + ((rowScatterDims N R C wf).window (ix2 e l') 0 : ℤ)
      = (idx (ix2 e (0 : Fin 1))).toInt := by
  have hw : (rowScatterDims N R C wf).window (ix2 e l') 0 = 0 := rfl
  rw [hw]
  unfold ScatterDims.start
  rw [dif_pos (show (0 : Fin 2) ∈ (rowScatterDims N R C wf).scatterDimsToOperandDims from List.mem_singleton.mpr rfl)]
  have hsi : (rowScatterDims N R C wf).siIdx (ix2 e l') ⟨List.idxOf (0 : Fin 2) (rowScatterDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  simp

/-- On the window axis a row update's start plus window coordinate is its column. -/
theorem rowScatter_axis1 (wf : ScatterDims.WF ⟨2, ![N, C]⟩ ⟨2, ![R, 1]⟩ ⟨2, ![R, C]⟩ [1] [0] [0] 1)
    (idx : IVec ⟨2, ![R, 1]⟩ w) (e : Fin R) (l' : Fin C) :
    (rowScatterDims N R C wf).start (ix2 e l') idx 1 + ((rowScatterDims N R C wf).window (ix2 e l') 1 : ℤ)
      = (l'.val : ℤ) := by
  have hw : (rowScatterDims N R C wf).window (ix2 e l') 1 = l'.val := rfl
  have hs : (rowScatterDims N R C wf).start (ix2 e l') idx 1 = 0 := rfl
  rw [hw, hs]
  simp

/-- The update entry `(e, l')` lands on `(n, l)` exactly when update `e`'s index is `n` and `l' = l`. -/
theorem rowScatter_lands (wf : ScatterDims.WF ⟨2, ![N, C]⟩ ⟨2, ![R, 1]⟩ ⟨2, ![R, C]⟩ [1] [0] [0] 1)
    (idx : IVec ⟨2, ![R, 1]⟩ w) (e : Fin R) (l' : Fin C) (n : Fin N) (l : Fin C) :
    (rowScatterDims N R C wf).resultIdx? (ix2 e l') idx = some (ix2 n l)
      ↔ (idx (ix2 e (0 : Fin 1))).toInt = (n.val : ℤ) ∧ l' = l := by
  rw [resultIdx?_eq_some_iff]
  constructor
  · intro h
    have h0 : (idx (ix2 e (0 : Fin 1))).toInt = (n.val : ℤ) := (rowScatter_axis0 wf idx e l').symm.trans (h 0)
    have h1 : (l'.val : ℤ) = (l.val : ℤ) := (rowScatter_axis1 wf idx e l').symm.trans (h 1)
    exact ⟨h0, Fin.ext (by exact_mod_cast h1)⟩
  · rintro ⟨h0, rfl⟩ a
    match a with
    | ⟨0, _⟩ => exact (rowScatter_axis0 wf idx e l').trans h0
    | ⟨1, _⟩ => exact rowScatter_axis1 wf idx e l'

/-- Entry `(n, l)` after the accumulating scatter of rows: the operand's entry plus the entries `(e, l)` of the update
    rows whose index is `n`. -/
theorem rowScatterAdd_apply {φ : FTy}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (n : Fin N) (l : Fin C) :
    Host.scatterAdd (F := Ideal) (rowScatterDims N R C wf) x idx upd (ix2 n l)
      = x (ix2 n l) + ∑ e : Fin R, if (idx (ix2 e (0 : Fin 1))).toInt = (n.val : ℤ) then upd (ix2 e l) else 0 := by
  show x (ix2 n l) + ∑ j ∈ Finset.univ.filter
      (fun j => (rowScatterDims N R C wf).resultIdx? j idx = some (ix2 n l)), upd j = _
  congr 1
  rw [Finset.sum_filter, sum_idx2]
  refine Finset.sum_congr rfl fun e _ => ?_
  simp only [rowScatter_lands]
  by_cases h : (idx (ix2 e (0 : Fin 1))).toInt = (n.val : ℤ)
  · simp only [h, true_and, if_true]
    rw [Finset.sum_ite_eq']
    simp
  · simp [h]

/-- On its one axis a scalar update's start plus window coordinate is its index, read signed. -/
theorem vecScatter_axis0 (wf : ScatterDims.WF ⟨1, ![N]⟩ ⟨2, ![R, 1]⟩ ⟨1, ![R]⟩ [] [0] [0] 1)
    (idx : IVec ⟨2, ![R, 1]⟩ w) (e : Fin R) :
    (vecScatterDims N R wf).start (ix1 e) idx 0 + ((vecScatterDims N R wf).window (ix1 e) 0 : ℤ)
      = (idx (ix2 e (0 : Fin 1))).toInt := by
  have hw : (vecScatterDims N R wf).window (ix1 e) 0 = 0 := rfl
  rw [hw]
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  simp

/-- The update `e` lands on `n` exactly when its index is `n`. -/
theorem vecScatter_lands (wf : ScatterDims.WF ⟨1, ![N]⟩ ⟨2, ![R, 1]⟩ ⟨1, ![R]⟩ [] [0] [0] 1)
    (idx : IVec ⟨2, ![R, 1]⟩ w) (e : Fin R) (n : Fin N) :
    (vecScatterDims N R wf).resultIdx? (ix1 e) idx = some (ix1 n)
      ↔ (idx (ix2 e (0 : Fin 1))).toInt = (n.val : ℤ) := by
  rw [resultIdx?_eq_some_iff]
  constructor
  · intro h
    exact (vecScatter_axis0 wf idx e).symm.trans (h 0)
  · intro h0 a
    match a with
    | ⟨0, _⟩ => exact (vecScatter_axis0 wf idx e).trans h0

/-- Entry `n` after the accumulating scatter of scalars: the operand's entry plus the updates whose index is `n`. -/
theorem vecScatterAdd_apply {φ : FTy}
    (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (n : Fin N) :
    Host.scatterAdd (F := Ideal) (vecScatterDims N R wf) x idx upd (ix1 n)
      = x (ix1 n) + ∑ e : Fin R, if (idx (ix2 e (0 : Fin 1))).toInt = (n.val : ℤ) then upd (ix1 e) else 0 := by
  show x (ix1 n) + ∑ j ∈ Finset.univ.filter
      (fun j => (vecScatterDims N R wf).resultIdx? j idx = some (ix1 n)), upd j = _
  congr 1
  rw [Finset.sum_filter, sum_idx1]
  refine Finset.sum_congr rfl fun e _ => ?_
  simp only [vecScatter_lands]

/-! ## The gather of rows -/

/-- Result entry `(e, l)` of the row gather is the table's entry `(r, l)`, `r` the start index `idx[e, 0]` read signed and
    clamped into `[0, N - 1]`. -/
theorem rowGather_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (l : Fin C) :
    Host.gather (rowGatherDims N R C wf) x idx (ix2 e l)
      = x (ix2 (⟨min (idx (ix2 e (0 : Fin 1))).toInt.toNat (N - 1), by omega⟩ : Fin N) l) := by
  unfold Host.gather
  congr 1
  funext a
  refine Fin.ext ?_
  match a with
  | ⟨0, _⟩ =>
    show (rowGatherDims N R C wf).start (ix2 e l) idx 0 + (rowGatherDims N R C wf).batchCoord (ix2 e l) 0
      + (rowGatherDims N R C wf).offCoord (ix2 e l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e l) ⟨List.idxOf (0 : Fin 2) (rowGatherDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N R C wf).start (ix2 e l) idx 1 + (rowGatherDims N R C wf).batchCoord (ix2 e l) 1
      + (rowGatherDims N R C wf).offCoord (ix2 e l) 1 = l.val
    rw [GatherDims.batchCoord_eq_zero _ _ _ List.not_mem_nil]
    have hs : (rowGatherDims N R C wf).start (ix2 e l) idx 1 = 0 := rfl
    have ho : (rowGatherDims N R C wf).offCoord (ix2 e l) 1 = l.val := rfl
    rw [hs, ho]
    simp

/-! ## One column overwritten -/

/-- A left fold of steps that leave entry `i` alone leaves it alone. -/
theorem foldl_at_of_miss {ι β γ : Type} (step : (ι → β) → γ → (ι → β)) (i : ι) (lands : γ → Prop)
    (hmiss : ∀ r n, ¬ lands n → step r n i = r i) :
    ∀ (L : List γ) (r : ι → β), (∀ n ∈ L, ¬ lands n) → L.foldl step r i = r i := by
  intro L
  induction L with
  | nil => intro r _; rfl
  | cons n L ih =>
    intro r h
    rw [List.foldl_cons, ih _ (fun m hm => h m (List.mem_cons_of_mem _ hm)),
      hmiss r n (h n (List.mem_cons.mpr (Or.inl rfl)))]

/-- A left fold of steps each of which either leaves entry `i` alone or sets it to its own value: when every step that
    sets it sets it to `v`, and the entry is `v` at the start or some step sets it, the entry ends at `v`. -/
theorem foldl_at_of_hit {ι β γ : Type} (step : (ι → β) → γ → (ι → β)) (i : ι) (lands : γ → Prop) (val : γ → β) (v : β)
    (hmiss : ∀ r n, ¬ lands n → step r n i = r i) (hhit : ∀ r n, lands n → step r n i = val n) :
    ∀ (L : List γ) (r : ι → β), (∀ n ∈ L, lands n → val n = v) → (r i = v ∨ ∃ n ∈ L, lands n) →
      L.foldl step r i = v := by
  intro L
  induction L with
  | nil =>
    intro r _ h
    rcases h with h | ⟨n, hn, _⟩
    · exact h
    · cases hn
  | cons n L ih =>
    intro r hv h
    rw [List.foldl_cons]
    apply ih _ (fun m hm => hv m (List.mem_cons_of_mem _ hm))
    by_cases hl : lands n
    · left; rw [hhit r n hl]; exact hv n (List.mem_cons.mpr (Or.inl rfl)) hl
    · rcases h with h | ⟨m, hm, hlm⟩
      · left; rw [hmiss r n hl]; exact h
      · rcases List.mem_cons.mp hm with rfl | hm'
        · exact absurd hlm hl
        · right; exact ⟨m, hm', hlm⟩

/-- The overwriting scatter leaves alone an entry no update lands on. -/
theorem scatter_set_of_miss {s si u : Shape} {α : Type} (d : ScatterDims s si u) {w : ℕ} (x : s.Idx → α)
    (idx : IVec si w) (upd : u.Idx → α) (i : s.Idx) (h : ∀ j, d.resultIdx? j idx ≠ some i) :
    Host.scatter d (fun _ b => b) x idx upd i = x i := by
  unfold Host.scatter
  refine foldl_at_of_miss _ i (fun n => d.resultIdx? (u.rowMajor.symm n) idx = some i) ?_ _ x (fun n _ => h _)
  intro r n hl
  dsimp only
  cases hres : d.resultIdx? (u.rowMajor.symm n) idx with
  | none => rfl
  | some i1 =>
    dsimp only
    rw [if_neg]
    rintro rfl
    exact hl hres

/-- The overwriting scatter sets an entry that some update lands on, every update landing on it carrying one value, to
    that value. -/
theorem scatter_set_of_hit {s si u : Shape} {α : Type} (d : ScatterDims s si u) {w : ℕ} (x : s.Idx → α)
    (idx : IVec si w) (upd : u.Idx → α) (i : s.Idx) (j0 : u.Idx) (h0 : d.resultIdx? j0 idx = some i)
    (h : ∀ j, d.resultIdx? j idx = some i → upd j = upd j0) :
    Host.scatter d (fun _ b => b) x idx upd i = upd j0 := by
  unfold Host.scatter
  refine foldl_at_of_hit _ i (fun n => d.resultIdx? (u.rowMajor.symm n) idx = some i)
    (fun n => upd (u.rowMajor.symm n)) (upd j0) ?_ ?_ _ x (fun n _ hl => h _ hl)
    (Or.inr ⟨u.rowMajor j0, List.mem_finRange _, by rw [Equiv.symm_apply_apply]; exact h0⟩)
  · intro r n hl
    dsimp only
    cases hres : d.resultIdx? (u.rowMajor.symm n) idx with
    | none => rfl
    | some i1 =>
      dsimp only
      rw [if_neg]
      rintro rfl
      exact hl hres
  · intro r n hl
    dsimp only at hl ⊢
    rw [hl]
    dsimp only
    rw [if_pos rfl]

/-- On the row axis a column entry's start plus window coordinate is its row. -/
theorem colSet_axis0 (wf : ScatterDims.WF ⟨2, ![R, C]⟩ ⟨1, ![1]⟩ ⟨1, ![R]⟩ [0] [1] [1] 0)
    (idx : IVec ⟨1, ![1]⟩ w) (e' : Fin R) :
    (colSetDims R C wf).start (ix1 e') idx 0 + ((colSetDims R C wf).window (ix1 e') 0 : ℤ) = (e'.val : ℤ) := by
  have hw : (colSetDims R C wf).window (ix1 e') 0 = e'.val := rfl
  have hs : (colSetDims R C wf).start (ix1 e') idx 0 = 0 := rfl
  rw [hw, hs]
  simp

/-- On the column axis a column entry's start plus window coordinate is the one index, read signed. -/
theorem colSet_axis1 (wf : ScatterDims.WF ⟨2, ![R, C]⟩ ⟨1, ![1]⟩ ⟨1, ![R]⟩ [0] [1] [1] 0)
    (idx : IVec ⟨1, ![1]⟩ w) (e' : Fin R) :
    (colSetDims R C wf).start (ix1 e') idx 1 + ((colSetDims R C wf).window (ix1 e') 1 : ℤ)
      = (idx (ix1 (0 : Fin 1))).toInt := by
  have hw : (colSetDims R C wf).window (ix1 e') 1 = 0 := rfl
  rw [hw]
  unfold ScatterDims.start
  rw [dif_pos (show (1 : Fin 2) ∈ (colSetDims R C wf).scatterDimsToOperandDims from List.mem_singleton.mpr rfl)]
  have hsi : (colSetDims R C wf).siIdx (ix1 e') ⟨List.idxOf (1 : Fin 2) (colSetDims R C wf).scatterDimsToOperandDims,
      List.idxOf_lt_length_iff.2 (List.mem_singleton.mpr rfl)⟩ = ix1 (0 : Fin 1) := by
    funext b; refine Fin.ext ?_
    match b with
    | ⟨0, _⟩ => rfl
  rw [hsi]
  simp

/-- The new column's entry `e'` lands on `(e, l)` exactly when `e' = e` and the index, read signed, is `l`. -/
theorem colSet_lands (wf : ScatterDims.WF ⟨2, ![R, C]⟩ ⟨1, ![1]⟩ ⟨1, ![R]⟩ [0] [1] [1] 0)
    (idx : IVec ⟨1, ![1]⟩ w) (e' e : Fin R) (l : Fin C) :
    (colSetDims R C wf).resultIdx? (ix1 e') idx = some (ix2 e l)
      ↔ e' = e ∧ (idx (ix1 (0 : Fin 1))).toInt = (l.val : ℤ) := by
  rw [resultIdx?_eq_some_iff]
  constructor
  · intro h
    have h0 : (e'.val : ℤ) = (e.val : ℤ) := (colSet_axis0 wf idx e').symm.trans (h 0)
    have h1 : (idx (ix1 (0 : Fin 1))).toInt = (l.val : ℤ) := (colSet_axis1 wf idx e').symm.trans (h 1)
    exact ⟨Fin.ext (by exact_mod_cast h0), h1⟩
  · rintro ⟨rfl, h1⟩ a
    match a with
    | ⟨0, _⟩ => exact colSet_axis0 wf idx e'
    | ⟨1, _⟩ => exact (colSet_axis1 wf idx e').trans h1

/-- Entry `(e, l)` after the column write: the new column's entry `e` when `l` is the column the index vector names, the
    old entry otherwise (a column index outside `[0, C)` writes nothing). -/
theorem colSet_apply {α : Type}
    (wf : ScatterDims.WF ⟨2, ![R, C]⟩ ⟨1, ![1]⟩ ⟨1, ![R]⟩ [0] [1] [1] 0)
    (x : (⟨2, ![R, C]⟩ : Shape).Idx → α) (idx : IVec ⟨1, ![1]⟩ w) (upd : (⟨1, ![R]⟩ : Shape).Idx → α)
    (e : Fin R) (l : Fin C) :
    Host.scatter (colSetDims R C wf) (fun _ b => b) x idx upd (ix2 e l)
      = if (idx (ix1 (0 : Fin 1))).toInt = (l.val : ℤ) then upd (ix1 e) else x (ix2 e l) := by
  by_cases hk : (idx (ix1 (0 : Fin 1))).toInt = (l.val : ℤ)
  · rw [if_pos hk]
    refine scatter_set_of_hit _ x idx upd (ix2 e l) (ix1 e) ((colSet_lands wf idx e e l).mpr ⟨rfl, hk⟩) fun j hj => ?_
    rw [eq_ix1 j] at hj ⊢
    exact congrArg (fun t => upd (ix1 t)) ((colSet_lands wf idx _ e l).mp hj).1
  · rw [if_neg hk]
    refine scatter_set_of_miss _ x idx upd (ix2 e l) fun j hj => ?_
    rw [eq_ix1 j] at hj
    exact hk ((colSet_lands wf idx _ e l).mp hj).2

end Cert.LibScatter

end
-- ==== Proof.LibGatherVec.lean ====
/-
  A gather of scalars read at an index.

  `x[idx]` for a vector `x : [N]` and one index per result entry, `idx : [R, 1]`: result entry `e` is the
  vector's entry at the start index `idx[e, 0]`, read as a signed integer and clamped into `[0, N - 1]`.
-/
import Idealize.ShloMosaic.Lib.ValueIdx
import Idealize.ShloMosaic.PureOps.Ideal.Laws

noncomputable section

namespace Cert.LibGatherVec

open Idealize.ShloMosaic Idealize.ShloMosaic.ValueIdx

variable {N R w : ℕ}

/-- `x[idx]` along the one axis of a vector `[N]` at start indices `[R, 1]`: single entries are taken. -/
abbrev vecGatherDims (N R : ℕ)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ :=
  ⟨[], [0], [], [], [0], 1, ![1], wf⟩

/-- Result entry `e` of the gather of scalars is the vector's entry `r`, `r` the start index `idx[e, 0]` read signed and
    clamped into `[0, N - 1]`. -/
theorem vecGather_apply {α : Type} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 (⟨min (idx (ix2 e (0 : Fin 1))).toInt.toNat (N - 1), by omega⟩ : Fin N)) := by
  unfold Host.gather
  congr 1
  funext a
  refine Fin.ext ?_
  match a with
  | ⟨0, _⟩ =>
    show (vecGatherDims N R wf).start (ix1 e) idx 0 + (vecGatherDims N R wf).batchCoord (ix1 e) 0
      + (vecGatherDims N R wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N R wf).startIndexMap from List.mem_singleton.mpr rfl)]
    have hsi : (vecGatherDims N R wf).siIdx (ix1 e) ⟨List.idxOf (0 : Fin 1) (vecGatherDims N R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.LibGatherVec

end
-- ==== Proof.GcnAlgebra.lean ====
/-
  The algebra of one normalised graph-convolution step, over the extended reals.

  A node's new feature is a sum over the edges arriving at it.  One program scales each arriving row by the
  source's weight, sums, and scales the sum by the destination's weight; the other scales each arriving row by the
  product of the two weights and sums.  The two agree as soon as the destination's weight `c` is a nonnegative
  number other than `+∞`: multiplication by such a `c` distributes over every sum of extended reals, and
  multiplication is associative.  The weight is `1 / √(max deg 1)`, which is such a number whatever `deg` is.
-/
import Idealize.ShloMosaic.PureOps.Ideal
import Mathlib.Data.EReal.Operations

noncomputable section

namespace Cert.GcnAlgebra

open Idealize.ShloMosaic

/-- The word `0x3F800000` is the number one. -/
theorem one_word : Ideal.ofBits .f32 0x3F800000#32 = 1 := by
  simp [Ideal.ofBits, Ideal.ieee, -EReal.coe_mul]; norm_num

/-- The word `0x00000000` is zero. -/
theorem zero_word : Ideal.ofBits .f32 0x00000000#32 = 0 := by
  simp [Ideal.ofBits, Ideal.ieee]

/-- The inverse square root of anything at least one is a nonnegative number other than `+∞`. -/
theorem rsqrt_of_one_le {x : EReal} (hx : 1 ≤ x) : 0 ≤ Ideal.rsqrt x ∧ Ideal.rsqrt x ≠ ⊤ := by
  induction x using EReal.rec with
  | bot => exact absurd (le_bot_iff.mp hx) (EReal.coe_ne_bot 1)
  | top => simp
  | coe r =>
    have hr : (1 : ℝ) ≤ r := by exact_mod_cast hx
    rw [Ideal.rsqrt_coe, if_neg (by linarith), if_neg (by linarith)]
    exact ⟨by exact_mod_cast inv_nonneg.mpr (Real.sqrt_nonneg r), EReal.coe_ne_top _⟩

/-- So is the weight `1 / √(max v 1)` of a node of any degree `v`. -/
theorem weight_nonneg_ne_top (v : EReal) :
    0 ≤ Ideal.rsqrt (max v (Ideal.ofBits .f32 0x3F800000#32))
      ∧ Ideal.rsqrt (max v (Ideal.ofBits .f32 0x3F800000#32)) ≠ ⊤ := by
  rw [one_word]
  exact rsqrt_of_one_le (le_max_right _ _)

/-- Multiplication by a nonnegative number other than `+∞` goes inside a finite sum. -/
theorem sum_mul_of_nonneg_ne_top {ι : Type*} (s : Finset ι) (f : ι → EReal) {c : EReal} (h0 : 0 ≤ c) (ht : c ≠ ⊤) :
    (∑ e ∈ s, f e) * c = ∑ e ∈ s, f e * c := by
  classical
  induction s using Finset.induction_on with
  | empty => simp
  | insert a s ha ih =>
    rw [Finset.sum_insert ha, Finset.sum_insert ha, EReal.right_distrib_of_nonneg_of_ne_top h0 ht, ih]

/-- The step's law: the sum over the arriving edges of `a e · u e`, scaled by the destination's weight `c`, is the sum
    of `a e · (u e · c' e)`, when every arriving edge's own destination weight `c' e` is `c`. -/
theorem scaled_sum_eq {ι : Type*} [Fintype ι] (hit : ι → Prop) [DecidablePred hit] (a u c' : ι → EReal) (c : EReal)
    (h0 : 0 ≤ c) (ht : c ≠ ⊤) (hc : ∀ e, hit e → c' e = c) :
    (0 + ∑ e, if hit e then a e * u e else 0) * c = 0 + ∑ e, if hit e then a e * (u e * c' e) else 0 := by
  rw [zero_add, zero_add, sum_mul_of_nonneg_ne_top _ _ h0 ht]
  refine Finset.sum_congr rfl fun e _ => ?_
  by_cases h : hit e
  · rw [if_pos h, if_pos h, hc e h, mul_assoc]
  · rw [if_neg h, if_neg h, zero_mul]

end Cert.GcnAlgebra

end
-- ==== Proof.GcnLayer.lean ====
/-
  One normalised graph-convolution step as the host's indexed operations compute it, in its two arrangements.

  `P` is the table of transformed node features, `dv` the node weights, `sI` the (wrapped) source index of every edge,
  `dI` the raw destination index and `dnI` the wrapped destination index.  One arrangement gathers rows of the table
  already scaled by the source's weight (`PS`), adds them up per destination, and scales the sum by the destination's
  weight (`d2`, the weights as one column).  The other gathers rows of `P`, scales each by the product of the two gathered
  weights (`nrm`), and adds them up per destination.  An edge counts for destination `n` exactly when its raw index is
  `n`; then its wrapped and clamped index is `n` too (`hdn`), so the gathered destination weight is `n`'s own, and the
  law of GcnAlgebra applies.
-/
import Idealize.ShloMosaic.Lib.ValueIdx
import Idealize.ShloMosaic.PureOps.Ideal.Laws
import proofs.«155776_j91233695301736_2_alg».proof.Proof.LibScatter
import proofs.«155776_j91233695301736_2_alg».proof.Proof.LibGatherVec
import proofs.«155776_j91233695301736_2_alg».proof.Proof.GcnSpec
import proofs.«155776_j91233695301736_2_alg».proof.Proof.GcnAlgebra

noncomputable section

namespace Cert.GcnLayer

open Idealize.ShloMosaic Idealize.ShloMosaic.ValueIdx Cert.LibScatter Cert.LibGatherVec Cert.GcnSpec Cert.GcnAlgebra

variable {N R C w : ℕ} {φ : FTy}

/-- The table row an index array names for entry `e`: its word read signed and clamped into `[0, N - 1]`. -/
def rowOf (hN : 0 < N) (idx : IVec ⟨2, ![R, 1]⟩ w) (e : Fin R) : Fin N :=
  ⟨min (idx (ix2 e (0 : Fin 1))).toInt.toNat (N - 1), by omega⟩

theorem layer_eq (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (wfV : GatherDims.WF ⟨1, ![N]⟩ ⟨2, ![R, 1]⟩ ⟨1, ![R]⟩ [] [0] [] [0] [] 1 ![1])
    (P PS Z : FVec Ideal ⟨2, ![N, C]⟩ φ) (nrm : FVec Ideal ⟨2, ![R, C]⟩ φ)
    (dv : FVec Ideal ⟨1, ![N]⟩ φ) (d2 : FVec Ideal ⟨2, ![N, 1]⟩ φ) (b : FVec Ideal ⟨1, ![C]⟩ φ)
    (sI dI dnI : IVec ⟨2, ![R, 1]⟩ w)
    (hZ : ∀ i, Z i = 0)
    (hd2 : ∀ r : Fin N, d2 (ix2 r (0 : Fin 1)) = dv (ix1 r))
    (hdv : ∀ r : Fin N, (0 : EReal) ≤ dv (ix1 r) ∧ dv (ix1 r) ≠ (⊤ : EReal))
    (hPS : ∀ (r : Fin N) (q : Fin C), PS (ix2 r q) = P (ix2 r q) * d2 (ix2 r (0 : Fin 1)))
    (hnrm : ∀ (e : Fin R) (q : Fin C), nrm (ix2 e q)
      = Host.gather (vecGatherDims N R wfV) dv sI (ix1 e) * Host.gather (vecGatherDims N R wfV) dv dnI (ix1 e))
    (hdn : ∀ (e : Fin R) (n : Fin N), (dI (ix2 e (0 : Fin 1))).toInt = (n.val : ℤ) → rowOf hN dnI e = n)
    (i : Fin N) (j : Fin C) :
    biasReluAt (Host.scatterAdd (F := Ideal) (rowScatterDims N R C wfS) Z dI
        (Host.gather (rowGatherDims N R C wfG) PS sI)) d2 b i j
      = max (Host.scatterAdd (F := Ideal) (rowScatterDims N R C wfS) Z dI
          (mulf (Host.gather (rowGatherDims N R C wfG) P sI) nrm) (ix2 i j) + b (ix1 j))
          (Ideal.ofBits .f32 0x00000000#32) := by
  unfold biasReluAt
  rw [rowScatterAdd_apply, rowScatterAdd_apply, hZ]
  have hL : ∀ e : Fin R, Host.gather (rowGatherDims N R C wfG) PS sI (ix2 e j)
      = P (ix2 (rowOf hN sI e) j) * dv (ix1 (rowOf hN sI e)) := fun e => by
    rw [rowGather_apply hN, hPS, hd2]; rfl
  have hR : ∀ e : Fin R, mulf (Host.gather (rowGatherDims N R C wfG) P sI) nrm (ix2 e j)
      = P (ix2 (rowOf hN sI e) j) * (dv (ix1 (rowOf hN sI e)) * dv (ix1 (rowOf hN dnI e))) := fun e => by
    rw [mulf_apply, rowGather_apply hN, hnrm, vecGather_apply hN, vecGather_apply hN]; rfl
  simp only [hL, hR]
  rw [hd2 i]
  exact congrArg (fun t => max (t + b (ix1 j)) (Ideal.ofBits .f32 0x00000000#32))
    (scaled_sum_eq (fun e : Fin R => (dI (ix2 e (0 : Fin 1))).toInt = (i.val : ℤ))
      (fun e => P (ix2 (rowOf hN sI e) j)) (fun e => dv (ix1 (rowOf hN sI e))) (fun e => dv (ix1 (rowOf hN dnI e)))
      (dv (ix1 i)) (hdv i).1 (hdv i).2 (fun e he => by rw [hdn e i he]))

end Cert.GcnLayer

end
-- ==== Proof.BridgeB.lean ====
/-
  The facts the layer law takes, read off the reference's stages: the table the sums start from is zero; the node
  weight `1 / √(max deg 1)` is a nonnegative number other than `+∞`; the column of node weights and the scaled product
  read at an index; the reference's per-edge factor is the product of the two gathered node weights; and an edge whose raw
  destination index is `n` has wrapped and clamped destination index `n` (a nonnegative word is not wrapped, and `n` is
  below the table's height).
-/
import proofs.«155776_j91233695301736_2_alg».proof.Proof.GcnTerms
import proofs.«155776_j91233695301736_2_alg».proof.Proof.GcnLayer
import proofs.«155776_j91233695301736_2_alg».proof.Proof.LibRowOps
import Idealize.ShloMosaic.Lib.Affine

noncomputable section

namespace Cert.GcnBridge

open Idealize.ShloMosaic Idealize.ShloMosaic.ValueIdx Cert.GcnSpec Cert.GcnTerms Cert.GcnAlgebra Cert.GcnLayer
open Cert.LibScatter Cert.LibGatherVec
open Cert.ReferenceIdeal Cert.ReferenceIdeal.Gen Cert.ReferenceIdeal.Read

theorem hN : 0 < 100000 := by norm_num

/-- The table the destinations' sums start from is zero. -/
theorem zero_table (i : S100000x128.Idx) : val_main_v40 (F := Ideal) i = 0 := by
  rw [val_main_v40_apply, val_main_cst_7_apply, Ideal.ofBits_def]; exact zero_word

/-- The node weights are nonnegative numbers other than `+∞`. -/
theorem weight_ok (x1 : (⟨S2x1600000, .i32⟩ : BufTy).Contents (Elt Ideal)) (r : Fin 100000) :
    (0 : EReal) ≤ val_main_v14 (F := Ideal) x1 (ix1 r) ∧ val_main_v14 (F := Ideal) x1 (ix1 r) ≠ (⊤ : EReal) := by
  rw [val_main_v14_apply, val_main_v13_apply, val_main_v12_apply, val_main_cst_1_apply, Ideal.hostUnary_rsqrt_def,
    Ideal.maximumf_def, Ideal.ofBits_def]
  exact weight_nonneg_ne_top _

/-- The column of node weights read at row `r`. -/
theorem wcol_apply (x1 : (⟨S2x1600000, .i32⟩ : BufTy).Contents (Elt Ideal)) (r : Fin 100000) : wcol x1 (ix2 r (0 : Fin 1)) = val_main_v14 (F := Ideal) x1 (ix1 r) := by
  unfold wcol; exact Cert.LibRowOps.col1_host_apply _ _ r

/-- The scaled product read at `(r, q)`: the host's product entry times the row's weight. -/
theorem scaled_product (h : FVec Ideal S100000x128 .f32) (W : FVec Ideal S128x128 .f32) (x1 : (⟨S2x1600000, .i32⟩ : BufTy).Contents (Elt Ideal)) (r : Fin 100000) (q : Fin 128) :
    ofCoords (mmScaleAt (M := 100000) (K := 128) (N := 128) h W (wcol x1)) (ix2 r q)
      = Host.dotGeneral (F := Ideal) dot_S100000x128_S128x128_S100000x128_1_0_0_1_n_n none h W (ix2 r q) * wcol x1 (ix2 r (0 : Fin 1)) := by
  rw [ofCoords_apply]; unfold mmScaleAt
  exact congrArg (· * wcol x1 (ix2 r (0 : Fin 1))) (Cert.LibRowOps.dotGeneral_plain_apply _ none h W r q).symm

/-- The two spellings of the wrapped source index are one array. -/
theorem src_wrap_eq (x1 : (⟨S2x1600000, .i32⟩ : BufTy).Contents (Elt Ideal)) : val_main_v20 (F := Ideal) x1 = val_main_v35 (F := Ideal) x1 := by
  unfold val_main_v20 val_main_v35 val_main_v19 val_main_v34 val_main_v16 val_main_v31 val_main_v18 val_main_v33
    val_main_v15 val_main_v30 val_main_v17 val_main_v32 val_main_c val_main_c_5 val_main_c_2 val_main_c_6
  rfl

/-- The reference's per-edge factor laid along the columns: the product of the two gathered node weights. -/
theorem edge_factor (x1 : (⟨S2x1600000, .i32⟩ : BufTy).Contents (Elt Ideal)) (e : Fin 1700000) (q : Fin 128) :
    val_main_v38 (F := Ideal) x1 (ix2 e q)
      = Host.gather (vecGatherDims 100000 1700000 Facts₀.gather_S100000_S1700000x1_S1700000_n_0_n_n_0_1_1_wf) (val_main_v14 (F := Ideal) x1) (val_main_v35 (F := Ideal) x1) (ix1 e)
        * Host.gather (vecGatherDims 100000 1700000 Facts₀.gather_S100000_S1700000x1_S1700000_n_0_n_n_0_1_1_wf) (val_main_v14 (F := Ideal) x1) (val_main_v27 (F := Ideal) x1) (ix1 e) := by
  have hi : idx_main_v37 (idx_main_v38 (ix2 e q)) = ix1 e := funext fun a => by
    match a with
    | ⟨0, _⟩ => rfl
  rw [val_main_v38_apply, val_main_v37_apply, hi, val_main_v29_apply, Ideal.mulf_def]
  unfold val_main_v21 val_main_v28
  rw [src_wrap_eq]
  rfl

/-- An edge whose raw destination index is `n` has wrapped and clamped destination index `n`. -/
theorem dst_wrap (x1 : (⟨S2x1600000, .i32⟩ : BufTy).Contents (Elt Ideal)) (e : Fin 1700000) (n : Fin 100000)
    (h : (val_main_v41 (F := Ideal) x1 (ix2 e (0 : Fin 1))).toInt = (n.val : ℤ)) :
    rowOf hN (val_main_v27 (F := Ideal) x1) e = n := by
  have i41 : idx_main_v41 (ix2 e (0 : Fin 1)) = ix1 e := funext fun a => by
    match a with
    | ⟨0, _⟩ => rfl
  have i27 : idx_main_v27 (ix2 e (0 : Fin 1)) = ix1 e := funext fun a => by
    match a with
    | ⟨0, _⟩ => rfl
  rw [val_main_v41_apply, i41] at h
  have hlt : ¬ (IntOp.cmpi .slt (val_main_v7 (F := Ideal) x1 (ix1 e)) 0#32 = 1#1) := by
    rw [IntOp.cmpi_slt, h]
    have : (0#32 : BitVec 32).toInt = 0 := by decide
    omega
  have e27 : val_main_v27 (F := Ideal) x1 (ix2 e (0 : Fin 1)) = val_main_v7 (F := Ideal) x1 (ix1 e) := by
    rw [val_main_v27_apply, i27, val_main_v26_apply, val_main_v23_apply, val_main_v22_apply, val_main_c_3_apply,
      eq_zero_of_ne_one hlt, select_zero]
  apply Fin.ext
  show min (val_main_v27 (F := Ideal) x1 (ix2 e (0 : Fin 1))).toInt.toNat (100000 - 1) = n.val
  rw [e27, h]
  have := n.isLt
  omega

end Cert.GcnBridge

end
-- ==== Proof.BridgeC.lean ====
/-
  The two layers are one function.

  At an entry `(r, q)` the five-call program's layer is the scaled sum `(0 + ∑ over the edges arriving at r of the scaled
  product's gathered entry) · weight r + b q`, clipped; the reference's is `0 + ∑ over the same edges of the product's
  gathered entry times the two gathered weights, + b q`, clipped.  The law of GcnLayer, fed with the facts read off the
  reference's stages, says they are equal.
-/
import proofs.«155776_j91233695301736_2_alg».proof.Proof.BridgeA
import proofs.«155776_j91233695301736_2_alg».proof.Proof.BridgeB

noncomputable section

namespace Cert.GcnBridge

open Idealize.ShloMosaic Idealize.ShloMosaic.ValueIdx Cert.GcnSpec Cert.GcnTerms Cert.GcnAlgebra Cert.GcnLayer
open Cert.LibScatter Cert.LibGatherVec
open Cert.ReferenceIdeal Cert.ReferenceIdeal.Gen Cert.ReferenceIdeal.Read

theorem KL_eq_RL (h : FVec Ideal S100000x128 .f32) (W : FVec Ideal S128x128 .f32) (b : FVec Ideal S128 .f32) (x1 : (⟨S2x1600000, .i32⟩ : BufTy).Contents (Elt Ideal)) :
    KL h W b x1 = RL h W b x1 := by
  funext i
  obtain ⟨r, q, rfl⟩ : ∃ (r : Fin 100000) (q : Fin 128), i = ix2 r q := ⟨i 0, i 1, eq_ix2 i⟩
  have hb : val_main_v44 (F := Ideal) b (ix2 r q) = b (ix1 q) := by
    unfold val_main_v44 val_main_v43
    exact Cert.LibRowOps.rowVec_host_apply b _ _ r q
  have h0 : val_main_call0_v0 (F := Ideal) (ix2 r q) = Ideal.ofBits .f32 0x00000000#32 := by
    rw [val_main_call0_v0_apply, val_main_call0_cst_apply, Ideal.ofBits_def]
  unfold KL RL
  rw [ofCoords_apply, maximumf_apply, addf_apply, hb, h0]
  unfold agg
  exact layer_eq (N := 100000) (R := 1700000) (C := 128) hN Facts₀.scatter_S100000x128_S1700000x1_S1700000x128_1_0_0_1_wf Facts₀.gather_S100000x128_S1700000x1_S1700000x128_1_0_n_n_0_1_1128_wf Facts₀.gather_S100000_S1700000x1_S1700000_n_0_n_n_0_1_1_wf
    (Host.dotGeneral (F := Ideal) dot_S100000x128_S128x128_S100000x128_1_0_0_1_n_n none h W)
    (ofCoords (mmScaleAt (M := 100000) (K := 128) (N := 128) h W (wcol x1))) (val_main_v40 (F := Ideal))
    (val_main_v38 (F := Ideal) x1) (val_main_v14 (F := Ideal) x1) (wcol x1) b
    (val_main_v35 (F := Ideal) x1) (val_main_v41 (F := Ideal) x1) (val_main_v27 (F := Ideal) x1)
    zero_table (wcol_apply x1) (weight_ok x1) (scaled_product h W x1) (edge_factor x1) (dst_wrap x1) r q

end Cert.GcnBridge

end
-- ==== Proof.Head.lean ====
/-
  The joined head against the two separate heads.

  The five-call program joins the two weight matrices side by side and the two biases end to end, computes one product
  with thirty-two columns, and returns its first and its last sixteen columns.  Column `q < 16` of the joined product uses
  column `q` of the first matrix and entry `q` of the first bias; column `16 + q` uses column `q` of the second matrix and
  entry `q` of the second bias.  So the two halves are the reference's two heads.
-/
import proofs.«155776_j91233695301736_2_alg».proof.Proof.GcnTerms
import proofs.«155776_j91233695301736_2_alg».proof.Proof.LibRowOps
import Idealize.ShloMosaic.Lib.Pipeline.Value

noncomputable section

namespace Cert.GcnBridge

open Idealize.ShloMosaic Idealize.ShloMosaic.ValueIdx Cert.GcnSpec Cert.GcnTerms
open Cert.ReferenceIdeal Cert.ReferenceIdeal.Gen Cert.ReferenceIdeal.Read

/-- One head as the reference computes it: the product with a sixteen-column matrix, shifted by its bias. -/
def RH (H : FVec Ideal S100000x128 .f32) (W : FVec Ideal S128x16 .f32) (b : FVec Ideal S16 .f32) : FVec Ideal S100000x16 .f32 :=
  addf (Host.dotGeneral (F := Ideal) dot_S100000x128_S128x16_S100000x16_1_0_0_1_n_n none H W) (val_main_v92 (F := Ideal) b)

theorem RH_apply (H : FVec Ideal S100000x128 .f32) (W : FVec Ideal S128x16 .f32) (b : FVec Ideal S16 .f32)
    (r : Fin 100000) (q : Fin 16) :
    RH H W b (ix2 r q) = (∑ k : Fin 128, H (ix2 r k) * W (ix2 k q)) + b (ix1 q) := by
  unfold RH
  rw [addf_apply]
  refine congrArg₂ (· + ·) (Cert.LibRowOps.dotGeneral_plain_apply _ none H W r q) ?_
  unfold val_main_v92 val_main_v91
  exact Cert.LibRowOps.rowVec_host_apply b _ _ r q

variable (H : FVec Ideal S100000x128 .f32) (x6 x8 : FVec Ideal S128x16 .f32) (x7 x9 : FVec Ideal S16 .f32)

/-- The first sixteen columns of the joined head are the first head. -/
theorem head_left :
    extractStridedSlice Cert.KernelIdeal.S100000x16 ![0, 0]
        (ofCoords (headAt (M := 100000) (K := 128) (N := 32) H (concatenate Cert.KernelIdeal.S128x32 1 [⟨Cert.KernelIdeal.S128x16, x6⟩, ⟨Cert.KernelIdeal.S128x16, x8⟩] Cert.KernelIdeal.Facts₀.concatenates_S128x16_S128x16_S128x32_d1) (concatenate Cert.KernelIdeal.S32 0 [⟨Cert.KernelIdeal.S16, x7⟩, ⟨Cert.KernelIdeal.S16, x9⟩] Cert.KernelIdeal.Facts₀.concatenates_S16_S16_S32_d0)))
        Cert.KernelIdeal.Facts₀.slices_S100000x32_S100000x16_0_0
      = RH H x6 x7 := by
  funext i
  obtain ⟨r, q, rfl⟩ : ∃ (r : Fin 100000) (q : Fin 16), i = ix2 r q := ⟨i 0, i 1, eq_ix2 i⟩
  have hq : q.val < 32 := by have := q.isLt; omega
  rw [RH_apply, extractStridedSlice_apply ![0, 0] _ _ (ix2 r q) (ix2 r (⟨q.val, hq⟩ : Fin 32)) (fun a => by
    match a with
    | ⟨0, _⟩ => show r.val = 0 + r.val; omega
    | ⟨1, _⟩ => show q.val = 0 + q.val; omega)]
  rw [ofCoords_apply]
  unfold headAt
  refine congrArg₂ (· + ·) (Finset.sum_congr rfl fun k _ => congrArg (H (ix2 r k) * ·) ?_) ?_
  · exact concatenate_pair_apply_left (1 : Fin 2) x6 x8 _ (ix2 k (⟨q.val, hq⟩ : Fin 32)) rfl (ix2 k q) (fun b => by
      match b with
      | ⟨0, _⟩ => rfl
      | ⟨1, _⟩ => rfl)
  · exact concatenate_pair_apply_left (0 : Fin 1) x7 x9 _ (ix1 (⟨q.val, hq⟩ : Fin 32)) rfl (ix1 q) (fun b => by
      match b with
      | ⟨0, _⟩ => rfl)

/-- The last sixteen columns of the joined head are the second head. -/
theorem head_right :
    extractStridedSlice Cert.KernelIdeal.S100000x16 ![0, 16]
        (ofCoords (headAt (M := 100000) (K := 128) (N := 32) H (concatenate Cert.KernelIdeal.S128x32 1 [⟨Cert.KernelIdeal.S128x16, x6⟩, ⟨Cert.KernelIdeal.S128x16, x8⟩] Cert.KernelIdeal.Facts₀.concatenates_S128x16_S128x16_S128x32_d1) (concatenate Cert.KernelIdeal.S32 0 [⟨Cert.KernelIdeal.S16, x7⟩, ⟨Cert.KernelIdeal.S16, x9⟩] Cert.KernelIdeal.Facts₀.concatenates_S16_S16_S32_d0)))
        Cert.KernelIdeal.Facts₀.slices_S100000x32_S100000x16_0_16
      = RH H x8 x9 := by
  funext i
  obtain ⟨r, q, rfl⟩ : ∃ (r : Fin 100000) (q : Fin 16), i = ix2 r q := ⟨i 0, i 1, eq_ix2 i⟩
  have hq : 16 + q.val < 32 := by have := q.isLt; omega
  rw [RH_apply, extractStridedSlice_apply ![0, 16] _ _ (ix2 r q) (ix2 r (⟨16 + q.val, hq⟩ : Fin 32)) (fun a => by
    match a with
    | ⟨0, _⟩ => show r.val = 0 + r.val; omega
    | ⟨1, _⟩ => show 16 + q.val = 16 + q.val; rfl)]
  rw [ofCoords_apply]
  unfold headAt
  refine congrArg₂ (· + ·) (Finset.sum_congr rfl fun k _ => congrArg (H (ix2 r k) * ·) ?_) ?_
  · exact concatenate_pair_apply_right (1 : Fin 2) x6 x8 _ (ix2 k (⟨16 + q.val, hq⟩ : Fin 32)) rfl rfl (ix2 k q) (fun b hb => by
      match b with
      | ⟨0, _⟩ => rfl
      | ⟨1, _⟩ => exact absurd rfl hb) (by show q.val + 16 = 16 + q.val; omega)
  · exact concatenate_pair_apply_right (0 : Fin 1) x7 x9 _ (ix1 (⟨16 + q.val, hq⟩ : Fin 32)) rfl rfl (ix1 q) (fun b hb => by
      match b with
      | ⟨0, _⟩ => exact absurd rfl hb) (by show q.val + 16 = 16 + q.val; omega)

end Cert.GcnBridge

end
-- ==== Proof.Final.lean ====
/-
  The two results of each program as one function of the arguments: two layers and a head.
-/
import proofs.«155776_j91233695301736_2_alg».proof.Proof.KChain
import proofs.«155776_j91233695301736_2_alg».proof.Proof.BridgeA
import proofs.«155776_j91233695301736_2_alg».proof.Proof.BridgeA2
import proofs.«155776_j91233695301736_2_alg».proof.Proof.BridgeB
import proofs.«155776_j91233695301736_2_alg».proof.Proof.BridgeC
import proofs.«155776_j91233695301736_2_alg».proof.Proof.Head

noncomputable section

namespace Cert.GcnBridge

open Idealize.ShloMosaic Idealize.ShloMosaic.TcCoe Idealize.SL.Sem Cert.GcnSpec Cert.GcnTerms
open Cert.ReferenceIdeal.Read

/-! ## The reference's results -/

theorem ref_left (x0 : FVec Ideal Cert.ReferenceIdeal.S100000x128 .f32) (x1 : (⟨Cert.ReferenceIdeal.S2x1600000, .i32⟩ : BufTy).Contents (Elt Ideal))
    (x2 : FVec Ideal Cert.ReferenceIdeal.S128x128 .f32) (x3 : FVec Ideal Cert.ReferenceIdeal.S128 .f32)
    (x4 : FVec Ideal Cert.ReferenceIdeal.S128x128 .f32) (x5 : FVec Ideal Cert.ReferenceIdeal.S128 .f32)
    (x6 : FVec Ideal Cert.ReferenceIdeal.S128x16 .f32) (x7 : FVec Ideal Cert.ReferenceIdeal.S16 .f32) :
    val_main_v93 (F := Ideal) x0 x1 x2 x3 x4 x5 x6 x7 = RH (RL (RL x0 x2 x3 x1) x4 x5 x1) x6 x7 := by
  rw [show val_main_v93 (F := Ideal) x0 x1 x2 x3 x4 x5 x6 x7 = RH (val_main_v89 (F := Ideal) x0 x1 x2 x3 x4 x5) x6 x7 from rfl,
    v89_eq, v46_eq]

theorem ref_right (x0 : FVec Ideal Cert.ReferenceIdeal.S100000x128 .f32) (x1 : (⟨Cert.ReferenceIdeal.S2x1600000, .i32⟩ : BufTy).Contents (Elt Ideal))
    (x2 : FVec Ideal Cert.ReferenceIdeal.S128x128 .f32) (x3 : FVec Ideal Cert.ReferenceIdeal.S128 .f32)
    (x4 : FVec Ideal Cert.ReferenceIdeal.S128x128 .f32) (x5 : FVec Ideal Cert.ReferenceIdeal.S128 .f32)
    (x8 : FVec Ideal Cert.ReferenceIdeal.S128x16 .f32) (x9 : FVec Ideal Cert.ReferenceIdeal.S16 .f32) :
    val_main_v97 (F := Ideal) x0 x1 x2 x3 x4 x5 x8 x9 = RH (RL (RL x0 x2 x3 x1) x4 x5 x1) x8 x9 := by
  rw [show val_main_v97 (F := Ideal) x0 x1 x2 x3 x4 x5 x8 x9 = RH (val_main_v89 (F := Ideal) x0 x1 x2 x3 x4 x5) x8 x9 from rfl,
    v89_eq, v46_eq]

/-! ## The five-call program's results -/

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

theorem kernel_left :
    Cert.KernelIdeal.Gen.W10 m ρ c (Proc.devRef .tc Cert.KernelIdeal.main_v42) = (RH (RL (RL (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg1))) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg1))) (m ((c : Thread Cert.KernelIdeal.nD Cert.KernelIdeal.τ).loc Cert.KernelIdeal.main_arg6)) (m ((c : Thread Cert.KernelIdeal.nD Cert.KernelIdeal.τ).loc Cert.KernelIdeal.main_arg7))) := by
  refine (Cert.KernelIdeal.Whole.W10_v42 m ρ c).trans ?_
  simp only [KL_eq_RL]
  exact head_left _ _ _ _ _

theorem kernel_right :
    Cert.KernelIdeal.Gen.W10 m ρ c (Proc.devRef .tc Cert.KernelIdeal.main_v43) = (RH (RL (RL (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg1))) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg1))) (m ((c : Thread Cert.KernelIdeal.nD Cert.KernelIdeal.τ).loc Cert.KernelIdeal.main_arg8)) (m ((c : Thread Cert.KernelIdeal.nD Cert.KernelIdeal.τ).loc Cert.KernelIdeal.main_arg9))) := by
  refine (Cert.KernelIdeal.Whole.W10_v43 m ρ c).trans ?_
  simp only [KL_eq_RL]
  exact head_right _ _ _ _ _

end Cert.GcnBridge

end
-- ==== Proof.lean ====
/-
  A two-layer graph convolution with two linear heads, computed by five tiled kernel calls among host gathers and
  scatter-adds, against its plain reference.

  Per layer the reference forms `h · W`, gathers its rows by source, scales each gathered row by the product of the
  source's and the destination's node weight `1 / √(max deg 1)`, adds the rows up per destination, adds the bias and clips
  at zero.  The five-call program scales row `r` of `h · W` by node `r`'s weight inside its first kernel, gathers and
  adds up the scaled rows on the host, and multiplies by the destination's weight, adds the bias and clips inside its
  second kernel; its last kernel computes both heads as one product with the two weight matrices side by side.  Over the
  extended reals the two are the same function of the arguments: the node weight is a nonnegative number other than
  `+∞`, multiplication by such a number distributes over any sum, and a change of float format is the identity.  The frames of
  the two kernel programs are the generated ones; the reference's frame is its generated run; the pass that idealized
  the kernel rewrote nothing.
-/
import proofs.«155776_j91233695301736_2_alg».proof.Defs
import proofs.«155776_j91233695301736_2_alg».proof.Proof.Gen.Kernel
import proofs.«155776_j91233695301736_2_alg».proof.Proof.Gen.Kernel.Skeleton
import proofs.«155776_j91233695301736_2_alg».proof.Proof.Gen.Kernel.Launch
import proofs.«155776_j91233695301736_2_alg».proof.Proof.Gen.Kernel.Points
import proofs.«155776_j91233695301736_2_alg».proof.Proof.Gen.Kernel.Frame
import proofs.«155776_j91233695301736_2_alg».proof.Proof.Gen.KernelIdeal
import proofs.«155776_j91233695301736_2_alg».proof.Proof.Gen.KernelIdeal.Skeleton
import proofs.«155776_j91233695301736_2_alg».proof.Proof.Gen.KernelIdeal.Launch
import proofs.«155776_j91233695301736_2_alg».proof.Proof.Gen.KernelIdeal.Points
import proofs.«155776_j91233695301736_2_alg».proof.Proof.Gen.KernelIdeal.Frame
import proofs.«155776_j91233695301736_2_alg».proof.Proof.Gen.ReferenceIdeal
import proofs.«155776_j91233695301736_2_alg».proof.Proof.Gen.ReferenceIdeal.Run
import proofs.«155776_j91233695301736_2_alg».proof.Proof.Gen.ReferenceIdeal.Read
import proofs.«155776_j91233695301736_2_alg».proof.Proof.Gen.Pre_finite_inputs
import proofs.«155776_j91233695301736_2_alg».proof.Proof.KRun
import proofs.«155776_j91233695301736_2_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the same two arrays: two layers and a head of
    the arguments, the five-call program's read off its run boundary by boundary, the reference's off its generated run. -/
theorem algebraic : Cert.algebraic_KernelIdeal_ReferenceIdeal := by
  intro m ρ m' ρ' _ hagree
  refine ⟨fun c => Cert.GcnBridge.RH (Cert.GcnBridge.RL (Cert.GcnBridge.RL (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg1))) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg1))) (m ((c : Thread Cert.KernelIdeal.nD Cert.KernelIdeal.τ).loc Cert.KernelIdeal.main_arg6)) (m ((c : Thread Cert.KernelIdeal.nD Cert.KernelIdeal.τ).loc Cert.KernelIdeal.main_arg7)),
    fun c => Cert.GcnBridge.RH (Cert.GcnBridge.RL (Cert.GcnBridge.RL (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg1))) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg1))) (m ((c : Thread Cert.KernelIdeal.nD Cert.KernelIdeal.τ).loc Cert.KernelIdeal.main_arg8)) (m ((c : Thread Cert.KernelIdeal.nD Cert.KernelIdeal.τ).loc Cert.KernelIdeal.main_arg9)), ?_, ?_⟩
  · exact (θ_run Cert.KernelIdeal.defs _ _).mono (fun r h c =>
      ⟨(h c).1.trans (Cert.GcnBridge.kernel_left m ρ c), (h c).2.1.trans (Cert.GcnBridge.kernel_right m ρ c), (h c).2.2⟩)
      (Cert.KernelIdeal.Whole.run_results m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v93_eq, (hagree c).1, (hagree c).2.1, (hagree c).2.2.1, (hagree c).2.2.2.1,
        (hagree c).2.2.2.2.1, (hagree c).2.2.2.2.2.1, (hagree c).2.2.2.2.2.2.1, (hagree c).2.2.2.2.2.2.2.1]
      exact Cert.GcnBridge.ref_left _ _ _ _ _ _ _ _
    · rw [Cert.ReferenceIdeal.Read.val_main_v97_eq, (hagree c).1, (hagree c).2.1, (hagree c).2.2.1, (hagree c).2.2.2.1,
        (hagree c).2.2.2.2.1, (hagree c).2.2.2.2.2.1, (hagree c).2.2.2.2.2.2.2.2.1, (hagree c).2.2.2.2.2.2.2.2.2]
      exact Cert.GcnBridge.ref_right _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
